-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S64x1024 : Shape := ⟨2, ![64, 1024]⟩
abbrev S64x128 : Shape := ⟨2, ![64, 128]⟩
abbrev S16x64 : Shape := ⟨2, ![16, 64]⟩
abbrev S16384 : Shape := ⟨1, ![16384]⟩
abbrev S100000x5 : Shape := ⟨2, ![100000, 5]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64x128 : S_.BroadcastsInDim S64x128 (![] : Fin 0 → Fin S64x128.rank)
  reducesTo_S64x128_S_d0_1 : S64x128.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  main_v18

def fn {F : FTy → Type} [FloatOps F] (main_arg0 : FVec F S100000x512 .f32) (main_arg1 : FVec F S64x1024 .f32) (main_arg2 : FVec F S64x128 .f32) (main_arg3 : FVec F S16x64 .f32) (main_arg4 : IVec S16384 32) (main_arg5 : IVec S100000x5 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_v13 main_v16
-- ==== Kernel.lean ====
abbrev S100000x512 : Shape := ⟨2, ![100000, 512]⟩
abbrev S64x1024 : Shape := ⟨2, ![64, 1024]⟩
abbrev S64x128 : Shape := ⟨2, ![64, 128]⟩
abbrev S16x64 : Shape := ⟨2, ![16, 64]⟩
abbrev S16384 : Shape := ⟨1, ![16384]⟩
abbrev S100000x5 : Shape := ⟨2, ![100000, 5]⟩
abbrev S64x512 : Shape := ⟨2, ![64, 512]⟩
abbrev S512x64 : Shape := ⟨2, ![512, 64]⟩
abbrev S100000x128 : Shape := ⟨2, ![100000, 128]⟩
abbrev S5000x512 : Shape := ⟨2, ![5000, 512]⟩
abbrev S5000x128 : Shape := ⟨2, ![5000, 128]⟩
abbrev S5000x64 : Shape := ⟨2, ![5000, 64]⟩
abbrev S100000x64 : Shape := ⟨2, ![100000, 64]⟩
abbrev S_ : Shape := ⟨0, ![]⟩
abbrev S100000x5x1 : Shape := ⟨3, ![100000, 5, 1]⟩
abbrev S100000x5x64 : Shape := ⟨3, ![100000, 5, 64]⟩
abbrev S16384x1 : Shape := ⟨2, ![16384, 1]⟩
abbrev S16384x64 : Shape := ⟨2, ![16384, 64]⟩
abbrev S16384x5 : Shape := ⟨2, ![16384, 5]⟩
abbrev S16384x5x1 : Shape := ⟨3, ![16384, 5, 1]⟩
abbrev S16384x5x64 : Shape := ⟨3, ![16384, 5, 64]⟩
abbrev S64x64 : Shape := ⟨2, ![64, 64]⟩
abbrev S64x16 : Shape := ⟨2, ![64, 16]⟩
abbrev S16384x16 : Shape := ⟨2, ![16384, 16]⟩
abbrev S8192x64 : Shape := ⟨2, ![8192, 64]⟩
abbrev S8192x16 : Shape := ⟨2, ![8192, 16]⟩

abbrev nBuf : Space → Nat
  | .hbm => 79
  | .vmem => 15
  | .smem => 0
  | _ => 0

abbrev bufTy : (tb : Table) → Fin (tcTables nBuf tb) → BufTy
  | .hbm, ⟨0, _⟩ => ⟨S100000x512, .f32⟩
  | .hbm, ⟨1, _⟩ => ⟨S64x1024, .f32⟩
  | .hbm, ⟨2, _⟩ => ⟨S64x128, .f32⟩
  | .hbm, ⟨3, _⟩ => ⟨S16x64, .f32⟩
  | .hbm, ⟨4, _⟩ => ⟨S16384, .i32⟩
  | .hbm, ⟨5, _⟩ => ⟨S100000x5, .i32⟩
  | .hbm, ⟨6, _⟩ => ⟨S64x512, .f32⟩
  | .hbm, ⟨7, _⟩ => ⟨S512x64, .f32⟩
  | .hbm, ⟨8, _⟩ => ⟨S512x64, .bf16⟩
  | .hbm, ⟨9, _⟩ => ⟨S64x512, .f32⟩
  | .hbm, ⟨10, _⟩ => ⟨S512x64, .f32⟩
  | .hbm, ⟨11, _⟩ => ⟨S512x64, .bf16⟩
  | .hbm, ⟨12, _⟩ => ⟨S100000x128, .bf16⟩
  | .hbm, ⟨13, _⟩ => ⟨S100000x64, .bf16⟩
  | .hbm, ⟨14, _⟩ => ⟨S100000x64, .bf16⟩
  | .hbm, ⟨15, _⟩ => ⟨S_, .i32⟩
  | .hbm, ⟨16, _⟩ => ⟨S100000x5, .i32⟩
  | .hbm, ⟨17, _⟩ => ⟨S100000x5, .i1⟩
  | .hbm, ⟨18, _⟩ => ⟨S_, .i32⟩
  | .hbm, ⟨19, _⟩ => ⟨S100000x5, .i32⟩
  | .hbm, ⟨20, _⟩ => ⟨S100000x5, .i32⟩
  | .hbm, ⟨21, _⟩ => ⟨S100000x5, .i32⟩
  | .hbm, ⟨22, _⟩ => ⟨S100000x5x1, .i32⟩
  | .hbm, ⟨23, _⟩ => ⟨S100000x5x64, .bf16⟩
  | .hbm, ⟨24, _⟩ => ⟨S100000x5x64, .f32⟩
  | .hbm, ⟨25, _⟩ => ⟨S_, .f32⟩
  | .hbm, ⟨26, _⟩ => ⟨S100000x64, .f32⟩
  | .hbm, ⟨27, _⟩ => ⟨S_, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | .hbm, ⟨35, _⟩ => ⟨S100000x64, .bf16⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S16384x1, .i32⟩
  | .hbm, ⟨44, _⟩ => ⟨S16384x64, .bf16⟩
  | .hbm, ⟨45, _⟩ => ⟨S_, .i32⟩
  | .hbm, ⟨46, _⟩ => ⟨S16384, .i32⟩
  | .hbm, ⟨47, _⟩ => ⟨S16384, .i1⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S16384x1, .i32⟩
  | .hbm, ⟨53, _⟩ => ⟨S16384x5, .i32⟩
  | .hbm, ⟨54, _⟩ => ⟨S_, .i32⟩
  | .hbm, ⟨55, _⟩ => ⟨S16384x5, .i32⟩
  | .hbm, ⟨56, _⟩ => ⟨S16384x5, .i1⟩
  | .hbm, ⟨57, _⟩ => ⟨S_, .i32⟩
  | .hbm, ⟨58, _⟩ => ⟨S16384x5, .i32⟩
  | .hbm, ⟨59, _⟩ => ⟨S16384x5, .i32⟩
  | .hbm, ⟨60, _⟩ => ⟨S16384x5, .i32⟩
  | .hbm, ⟨61, _⟩ => ⟨S16384x5x1, .i32⟩
  | .hbm, ⟨62, _⟩ => ⟨S16384x5x64, .bf16⟩
  | .hbm, ⟨63, _⟩ => ⟨S16384x5x64, .f32⟩
  | .hbm, ⟨64, _⟩ => ⟨S_, .f32⟩
  | .hbm, ⟨65, _⟩ => ⟨S16384x64, .f32⟩
  | .hbm, ⟨66, _⟩ => ⟨S_, .f32⟩
  | .hbm, ⟨67, _⟩ => ⟨S16384x64, .f32⟩
  | .hbm, ⟨68, _⟩ => ⟨S16384x64, .f32⟩
  | .hbm, ⟨69, _⟩ => ⟨S16384x64, .bf16⟩
  | .hbm, ⟨70, _⟩ => ⟨S64x64, .f32⟩
  | .hbm, ⟨71, _⟩ => ⟨S64x64, .f32⟩
  | .hbm, ⟨72, _⟩ => ⟨S64x64, .bf16⟩
  | .hbm, ⟨73, _⟩ => ⟨S64x64, .f32⟩
  | .hbm, ⟨74, _⟩ => ⟨S64x64, .f32⟩
  | .hbm, ⟨75, _⟩ => ⟨S64x64, .bf16⟩
  | .hbm, ⟨76, _⟩ => ⟨S64x16, .f32⟩
  | .hbm, ⟨77, _⟩ => ⟨S64x16, .bf16⟩
  | .hbm, ⟨78, _⟩ => ⟨S16384x16, .f32⟩
  | .local _ .vmem, ⟨0, _⟩ => ⟨S5000x512, .f32⟩
  | .local _ .vmem, ⟨1, _⟩ => ⟨S5000x512, .f32⟩
  | .local _ .vmem, ⟨2, _⟩ => ⟨S512x64, .bf16⟩
  | .local _ .vmem, ⟨3, _⟩ => ⟨S512x64, .bf16⟩
  | .local _ .vmem, ⟨4, _⟩ => ⟨S5000x128, .bf16⟩
  | .local _ .vmem, ⟨5, _⟩ => ⟨S5000x128, .bf16⟩
  | .local _ .vmem, ⟨6, _⟩ => ⟨S8192x64, .bf16⟩
  | .local _ .vmem, ⟨7, _⟩ => ⟨S8192x64, .bf16⟩
  | .local _ .vmem, ⟨8, _⟩ => ⟨S8192x64, .bf16⟩
  | .local _ .vmem, ⟨9, _⟩ => ⟨S8192x64, .bf16⟩
  | .local _ .vmem, ⟨10, _⟩ => ⟨S64x64, .bf16⟩
  | .local _ .vmem, ⟨11, _⟩ => ⟨S64x64, .bf16⟩
  | .local _ .vmem, ⟨12, _⟩ => ⟨S64x16, .bf16⟩
  | .local _ .vmem, ⟨13, _⟩ => ⟨S8192x16, .f32⟩
  | .local _ .vmem, ⟨14, _⟩ => ⟨S8192x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x16 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S64x1024_S64x512_0_0 : S64x1024.Slices ![0, 0] S64x512
  transposes_S64x512_S512x64_1_0 : S64x512.Transposes [1, 0] S512x64
  bitsLt_bf16_f32 : FTy.bits .bf16 < FTy.bits .f32
  slices_S64x1024_S64x512_0_512 : S64x1024.Slices ![0, 512] S64x512
  inb_S5000x512_S5000x512_0_0 : ∀ a, (![0, 0] : Fin 2 → Nat) a + S5000x512.size a ≤ S5000x512.size a
  h_S5000x512 : 0 < S5000x512.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  concatenates_S5000x64_S5000x64_S5000x128_d1 : Shape.Concatenates [S5000x64, S5000x64] S5000x128 1
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  slices_S100000x128_S100000x64_0_0 : S100000x128.Slices ![0, 0] S100000x64
  slices_S100000x128_S100000x64_0_64 : S100000x128.Slices ![0, 64] S100000x64
  bcast_S_S100000x5 : S_.BroadcastsInDim S100000x5 (![] : Fin 0 → Fin S100000x5.rank)
  bcast_S100000x5_S100000x5x1_0_1 : S100000x5.BroadcastsInDim S100000x5x1 (![0, 1] : Fin 2 → Fin S100000x5x1.rank)
  reducesTo_S100000x5x64_S100000x64_d1 : S100000x5x64.ReducesTo [1] S100000x64
  h_S_ : 0 < S_.numel
  bcast_S_S100000x64 : S_.BroadcastsInDim S100000x64 (![] : Fin 0 → Fin S100000x64.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x5 : S_.BroadcastsInDim S16384x5 (![] : Fin 0 → Fin S16384x5.rank)
  bcast_S16384x5_S16384x5x1_0_1 : S16384x5.BroadcastsInDim S16384x5x1 (![0, 1] : Fin 2 → Fin S16384x5x1.rank)
  reducesTo_S16384x5x64_S16384x64_d1 : S16384x5x64.ReducesTo [1] S16384x64
  bcast_S_S16384x64 : S_.BroadcastsInDim S16384x64 (![] : Fin 0 → Fin S16384x64.rank)
  slices_S64x128_S64x64_0_0 : S64x128.Slices ![0, 0] S64x64
  transposes_S64x64_S64x64_1_0 : S64x64.Transposes [1, 0] S64x64
  slices_S64x128_S64x64_0_64 : S64x128.Slices ![0, 64] S64x64
  transposes_S16x64_S64x16_1_0 : S16x64.Transposes [1, 0] S64x16
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S8192x16_S8192x16_0_0 : ∀ a, (![0, 0] : Fin 2 → Nat) a + S8192x16.size a ≤ S8192x16.size a
  h_S8192x16 : 0 < S8192x16.numel
  dot_S5000x512_S512x64_S5000x64_1_0_0_1_n_n_wf : DotDims.WF S5000x512 S512x64 S5000x64 [1] [0] [0] [1] [] []
  gather_S100000x64_S100000x5x1_S100000x5x64_2_0_n_n_0_2_164_wf : GatherDims.WF S100000x64 S100000x5x1 S100000x5x64 [2] [0] [] [0] [] 2 ![1, 64]
  gather_S100000x64_S16384x1_S16384x64_1_0_n_n_0_1_164_wf : GatherDims.WF S100000x64 S16384x1 S16384x64 [1] [0] [] [0] [] 1 ![1, 64]
  gather_S100000x5_S16384x1_S16384x5_1_0_n_n_0_1_15_wf : GatherDims.WF S100000x5 S16384x1 S16384x5 [1] [0] [] [0] [] 1 ![1, 5]
  gather_S100000x64_S16384x5x1_S16384x5x64_2_0_n_n_0_2_164_wf : GatherDims.WF S100000x64 S16384x5x1 S16384x5x64 [2] [0] [] [0] [] 2 ![1, 64]
  dot_S8192x64_S64x64_S8192x64_1_0_0_1_n_n_wf : DotDims.WF S8192x64 S64x64 S8192x64 [1] [0] [0] [1] [] []
  dot_S8192x64_S64x16_S8192x16_1_0_0_1_n_n_wf : DotDims.WF S8192x64 S64x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .bf16 = 32 ∨ (Rect.block (s := S512x64) S512x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .bf16 = 32 ∨ (Rect.block (s := S512x64) S512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S16384x64.size a
  hwx1_0 : ∀ i : grid1.Coords, EltTy.bits .bf16 = 32 ∨ (Rect.block (s := S16384x64) S8192x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S16384x64.size a
  hwx1_1 : ∀ i : grid1.Coords, EltTy.bits .bf16 = 32 ∨ (Rect.block (s := S16384x64) S8192x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x16.size a ≤ S64x16.size a
  hwx1_4 : ∀ i : grid1.Coords, EltTy.bits .bf16 = 32 ∨ (Rect.block (s := S64x16) S64x16.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x16.size a ≤ S16384x16.size a
  hwx1_5 : ∀ i : grid1.Coords, EltTy.bits .f32 = 32 ∨ (Rect.block (s := S16384x16) S8192x16.size (cc1_transform_5 i) (hinb1_5 i)).WholeWords (EltTy.packing .f32)

variable [Facts₀]

def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S100000x5x1_S100000x5x64_2_0_n_n_0_2_164 : GatherDims S100000x64 S100000x5x1 S100000x5x64 where
  offsetDims := [2]
  collapsedSliceDims := [0]
  operandBatchingDims := []
  startIndicesBatchingDims := []
  startIndexMap := [0]
  indexVectorDim := 2
  sliceSizes := ![1, 64]
  wf := gather_S100000x64_S100000x5x1_S100000x5x64_2_0_n_n_0_2_164_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S100000x5_S16384x1_S16384x5_1_0_n_n_0_1_15 : GatherDims S100000x5 S16384x1 S16384x5 where
  offsetDims := [1]
  collapsedSliceDims := [0]
  operandBatchingDims := []
  startIndicesBatchingDims := []
  startIndexMap := [0]
  indexVectorDim := 1
  sliceSizes := ![1, 5]
  wf := gather_S100000x5_S16384x1_S16384x5_1_0_n_n_0_1_15_wf
def gather_S100000x64_S16384x5x1_S16384x5x64_2_0_n_n_0_2_164 : GatherDims S100000x64 S16384x5x1 S16384x5x64 where
  offsetDims := [2]
  collapsedSliceDims := [0]
  operandBatchingDims := []
  startIndicesBatchingDims := []
  startIndexMap := [0]
  indexVectorDim := 2
  sliceSizes := ![1, 64]
  wf := gather_S100000x64_S16384x5x1_S16384x5x64_2_0_n_n_0_2_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S64x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S8192x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x512 : Shape := ⟨2, ![100000, 512]⟩
abbrev S64x1024 : Shape := ⟨2, ![64, 1024]⟩
abbrev S64x128 : Shape := ⟨2, ![64, 128]⟩
abbrev S16x64 : Shape := ⟨2, ![16, 64]⟩
abbrev S16384 : Shape := ⟨1, ![16384]⟩
abbrev S100000x5 : Shape := ⟨2, ![100000, 5]⟩
abbrev S_ : Shape := ⟨0, ![]⟩
abbrev S100000x5x1 : Shape := ⟨3, ![100000, 5, 1]⟩
abbrev S100000x5x512 : Shape := ⟨3, ![100000, 5, 512]⟩
abbrev S100000x1024 : Shape := ⟨2, ![100000, 1024]⟩
abbrev S1024x64 : Shape := ⟨2, ![1024, 64]⟩
abbrev S100000x64 : Shape := ⟨2, ![100000, 64]⟩
abbrev S16384x1 : Shape := ⟨2, ![16384, 1]⟩
abbrev S16384x64 : Shape := ⟨2, ![16384, 64]⟩
abbrev S16384x5 : Shape := ⟨2, ![16384, 5]⟩
abbrev S16384x5x1 : Shape := ⟨3, ![16384, 5, 1]⟩
abbrev S16384x5x64 : Shape := ⟨3, ![16384, 5, 64]⟩
abbrev S16384x128 : Shape := ⟨2, ![16384, 128]⟩
abbrev S128x64 : Shape := ⟨2, ![128, 64]⟩
abbrev S64x16 : Shape := ⟨2, ![64, 16]⟩
abbrev S16384x16 : Shape := ⟨2, ![16384, 16]⟩

abbrev nBuf : Space → Nat
  | .hbm => 66
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S64x1024, .f32⟩
  | .hbm, ⟨2, _⟩ => ⟨S64x128, .f32⟩
  | .hbm, ⟨3, _⟩ => ⟨S16x64, .f32⟩
  | .hbm, ⟨4, _⟩ => ⟨S16384, .i32⟩
  | .hbm, ⟨5, _⟩ => ⟨S100000x5, .i32⟩
  | .hbm, ⟨6, _⟩ => ⟨S_, .i32⟩
  | .hbm, ⟨7, _⟩ => ⟨S100000x5, .i32⟩
  | .hbm, ⟨8, _⟩ => ⟨S100000x5, .i1⟩
  | .hbm, ⟨9, _⟩ => ⟨S_, .i32⟩
  | .hbm, ⟨10, _⟩ => ⟨S100000x5, .i32⟩
  | .hbm, ⟨11, _⟩ => ⟨S100000x5, .i32⟩
  | .hbm, ⟨12, _⟩ => ⟨S100000x5, .i32⟩
  | .hbm, ⟨13, _⟩ => ⟨S100000x5x1, .i32⟩
  | .hbm, ⟨14, _⟩ => ⟨S100000x5x512, .f32⟩
  | .hbm, ⟨15, _⟩ => ⟨S_, .f32⟩
  | .hbm, ⟨16, _⟩ => ⟨S100000x512, .f32⟩
  | .hbm, ⟨17, _⟩ => ⟨S_, .f32⟩
  | .hbm, ⟨18, _⟩ => ⟨S100000x512, .f32⟩
  | .hbm, ⟨19, _⟩ => ⟨S100000x512, .f32⟩
  | .hbm, ⟨20, _⟩ => ⟨S100000x1024, .f32⟩
  | .hbm, ⟨21, _⟩ => ⟨S1024x64, .f32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x64, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S16384x5, .i32⟩
  | .hbm, ⟨44, _⟩ => ⟨S_, .i32⟩
  | .hbm, ⟨45, _⟩ => ⟨S16384x5, .i32⟩
  | .hbm, ⟨46, _⟩ => ⟨S16384x5, .i1⟩
  | .hbm, ⟨47, _⟩ => ⟨S_, .i32⟩
  | .hbm, ⟨48, _⟩ => ⟨S16384x5, .i32⟩
  | .hbm, ⟨49, _⟩ => ⟨S16384x5, .i32⟩
  | .hbm, ⟨50, _⟩ => ⟨S16384x5, .i32⟩
  | .hbm, ⟨51, _⟩ => ⟨S16384x5x1, .i32⟩
  | .hbm, ⟨52, _⟩ => ⟨S16384x5x64, .f32⟩
  | .hbm, ⟨53, _⟩ => ⟨S_, .f32⟩
  | .hbm, ⟨54, _⟩ => ⟨S16384x64, .f32⟩
  | .hbm, ⟨55, _⟩ => ⟨S_, .f32⟩
  | .hbm, ⟨56, _⟩ => ⟨S16384x64, .f32⟩
  | .hbm, ⟨57, _⟩ => ⟨S16384x64, .f32⟩
  | .hbm, ⟨58, _⟩ => ⟨S16384x128, .f32⟩
  | .hbm, ⟨59, _⟩ => ⟨S128x64, .f32⟩
  | .hbm, ⟨60, _⟩ => ⟨S16384x64, .f32⟩
  | .hbm, ⟨61, _⟩ => ⟨S_, .f32⟩
  | .hbm, ⟨62, _⟩ => ⟨S16384x64, .f32⟩
  | .hbm, ⟨63, _⟩ => ⟨S16384x64, .f32⟩
  | .hbm, ⟨64, _⟩ => ⟨S64x16, .f32⟩
  | .hbm, ⟨65, _⟩ => ⟨S16384x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_cst : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]

class Facts₀ : Prop where
  bcast_S_S100000x5 : S_.BroadcastsInDim S100000x5 (![] : Fin 0 → Fin S100000x5.rank)
  bcast_S100000x5_S100000x5x1_0_1 : S100000x5.BroadcastsInDim S100000x5x1 (![0, 1] : Fin 2 → Fin S100000x5x1.rank)
  reducesTo_S100000x5x512_S100000x512_d1 : S100000x5x512.ReducesTo [1] S100000x512
  h_S_ : 0 < S_.numel
  bcast_S_S100000x512 : S_.BroadcastsInDim S100000x512 (![] : Fin 0 → Fin S100000x512.rank)
  concatenates_S100000x512_S100000x512_S100000x1024_d1 : Shape.Concatenates [S100000x512, S100000x512] S100000x1024 1
  transposes_S64x1024_S1024x64_1_0 : S64x1024.Transposes [1, 0] S1024x64
  bcast_S_S100000x64 : S_.BroadcastsInDim S100000x64 (![] : Fin 0 → Fin S100000x64.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x5 : S_.BroadcastsInDim S16384x5 (![] : Fin 0 → Fin S16384x5.rank)
  bcast_S16384x5_S16384x5x1_0_1 : S16384x5.BroadcastsInDim S16384x5x1 (![0, 1] : Fin 2 → Fin S16384x5x1.rank)
  reducesTo_S16384x5x64_S16384x64_d1 : S16384x5x64.ReducesTo [1] S16384x64
  bcast_S_S16384x64 : S_.BroadcastsInDim S16384x64 (![] : Fin 0 → Fin S16384x64.rank)
  concatenates_S16384x64_S16384x64_S16384x128_d1 : Shape.Concatenates [S16384x64, S16384x64] S16384x128 1
  transposes_S64x128_S128x64_1_0 : S64x128.Transposes [1, 0] S128x64
  transposes_S16x64_S64x16_1_0 : S16x64.Transposes [1, 0] S64x16
  gather_S100000x512_S100000x5x1_S100000x5x512_2_0_n_n_0_2_1512_wf : GatherDims.WF S100000x512 S100000x5x1 S100000x5x512 [2] [0] [] [0] [] 2 ![1, 512]
  dot_S100000x1024_S1024x64_S100000x64_1_0_0_1_n_n_wf : DotDims.WF S100000x1024 S1024x64 S100000x64 [1] [0] [0] [1] [] []
  gather_S100000x64_S16384x1_S16384x64_1_0_n_n_0_1_164_wf : GatherDims.WF S100000x64 S16384x1 S16384x64 [1] [0] [] [0] [] 1 ![1, 64]
  gather_S100000x5_S16384x1_S16384x5_1_0_n_n_0_1_15_wf : GatherDims.WF S100000x5 S16384x1 S16384x5 [1] [0] [] [0] [] 1 ![1, 5]
  gather_S100000x64_S16384x5x1_S16384x5x64_2_0_n_n_0_2_164_wf : GatherDims.WF S100000x64 S16384x5x1 S16384x5x64 [2] [0] [] [0] [] 2 ![1, 64]
  dot_S16384x128_S128x64_S16384x64_1_0_0_1_n_n_wf : DotDims.WF S16384x128 S128x64 S16384x64 [1] [0] [0] [1] [] []
  dot_S16384x64_S64x16_S16384x16_1_0_0_1_n_n_wf : DotDims.WF S16384x64 S64x16 S16384x16 [1] [0] [0] [1] [] []

variable [Facts₀]

def gather_S100000x512_S100000x5x1_S100000x5x512_2_0_n_n_0_2_1512 : GatherDims S100000x512 S100000x5x1 S100000x5x512 where
  offsetDims := [2]
  collapsedSliceDims := [0]
  operandBatchingDims := []
  startIndicesBatchingDims := []
  startIndexMap := [0]
  indexVectorDim := 2
  sliceSizes := ![1, 512]
  wf := gather_S100000x512_S100000x5x1_S100000x5x512_2_0_n_n_0_2_1512_wf
def dot_S100000x1024_S1024x64_S100000x64_1_0_0_1_n_n : DotDims S100000x1024 S1024x64 S100000x64 where
  lhsContracting := [1]
  rhsContracting := [0]
  lhsNonContracting := [0]
  rhsNonContracting := [1]
  lhsBatch := []
  rhsBatch := []
  wf := dot_S100000x1024_S1024x64_S100000x64_1_0_0_1_n_n_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S100000x5_S16384x1_S16384x5_1_0_n_n_0_1_15 : GatherDims S100000x5 S16384x1 S16384x5 where
  offsetDims := [1]
  collapsedSliceDims := [0]
  operandBatchingDims := []
  startIndicesBatchingDims := []
  startIndexMap := [0]
  indexVectorDim := 1
  sliceSizes := ![1, 5]
  wf := gather_S100000x5_S16384x1_S16384x5_1_0_n_n_0_1_15_wf
def gather_S100000x64_S16384x5x1_S16384x5x64_2_0_n_n_0_2_164 : GatherDims S100000x64 S16384x5x1 S16384x5x64 where
  offsetDims := [2]
  collapsedSliceDims := [0]
  operandBatchingDims := []
  startIndicesBatchingDims := []
  startIndexMap := [0]
  indexVectorDim := 2
  sliceSizes := ![1, 64]
  wf := gather_S100000x64_S16384x5x1_S16384x5x64_2_0_n_n_0_2_164_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf

class Facts : Prop extends Facts₀ where

variable [Facts]
-- ==== Proof.FiniteInputs.lean ====
import proofs.«168417_j75204877353219_2_alg».proof.Pre_finite_inputs
import Idealize.ShloMosaic.PureOps.Ideal
import Idealize.ShloMosaic.Lib.ValueIdx
import Idealize.ShloMosaic.Lib.ReduceAll
noncomputable section
namespace Cert.Proof.Finite
open Idealize.ShloMosaic Cert.Pre_finite_inputs

/-- The result shape of a reduction over every axis has exactly one index. -/
instance : Subsingleton S_.Idx := ⟨fun a b => funext fun d => d.elim0⟩

/-- An extended real whose absolute value `max x (-x)` lies strictly below `+∞` is a real number:
    at `⊥` and at `⊤` the absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the precondition, `all(|a| < +inf)`, read back: every entry of `a` is a real number. -/
theorem reals_of_all {s : Shape} {axes : List (Fin s.rank)}
    (hb : S_.BroadcastsInDim s (![] : Fin 0 → Fin s.rank)) (hr : s.ReducesTo axes S_) (hu : 0 < S_.numel)
    (a : FVec Ideal s .f32)
    (h : Host.reduce IntOp.andi
          (cmpf .olt (Host.absf a) (broadcastInDim s ![] hb (constant S_ .f32 0x7F800000#32)))
          (constantI S_ 1 1#1) hr hu ValueIdx.ix0 = 1#1) :
    ∀ i, ∃ r : ℝ, a i = (r : EReal) := by
  intro i
  have hi := Host.reduce_andi_all _ _ hr hu _ h i
  -- the element of the compared array at `i`: `|a i| < ofBits 0x7F800000`, as an `i1`
  have hc : Ideal.cmp .olt (max (a i) (-(a i))) (Ideal.ofBits .f32 0x7F800000#32) = 1#1 := hi
  -- the pattern `0x7F800000` denotes `+∞`
  have htop : Ideal.ofBits .f32 0x7F800000#32 = (⊤ : EReal) := by simp [Ideal.ofBits, Ideal.ieee]
  rw [htop] at hc
  have hx : max (a i) (-(a i)) < (⊤ : EReal) := by
    by_contra hn
    simp [Ideal.cmp, hn] at hc
  exact real_of_abs_lt_top _ hx

/-- The precondition "every float input is finite", read at the extended reals: every entry of the four
    float argument arrays is a real number. -/
theorem reals_of_pre [Cert.Pre_finite_inputs.Facts]
    (a0 : FVec Ideal S100000x512 .f32) (a1 : FVec Ideal S64x1024 .f32) (a2 : FVec Ideal S64x128 .f32) (a3 : FVec Ideal S16x64 .f32)
    (a4 : IVec S16384 32) (a5 : IVec S100000x5 32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have h0 := congrFun h ValueIdx.ix0
  dsimp only [fn, fn_part1] at h0
  -- the result is the `and` of the four `all`s, each an `i1` at the one index
  obtain ⟨h012, h3⟩ := IntOp.andi_eq_one.1 h0
  obtain ⟨h01, h2⟩ := IntOp.andi_eq_one.1 h012
  obtain ⟨h0', h1⟩ := IntOp.andi_eq_one.1 h01
  exact ⟨reals_of_all _ _ _ a0 h0', reals_of_all _ _ _ a1 h1, reals_of_all _ _ _ a2 h2, reals_of_all _ _ _ a3 h3⟩

end Cert.Proof.Finite
-- ==== Proof.KernelRun.lean ====
/-
  The idealized kernel's run with its result array NAMED. @main is four segments: the host operations that split and
  transpose the layer-1 weight, the projection region, the host operations that gather and average neighbour rows and
  prepare the layer-2 operands, and the layer-2 region. Every weakly fair execution ends with each unscoped buffer at
  the contents of the last segment boundary (`Gen.W4`); read at the result buffer this is the layer-2 region's output
  array after all its write-backs, and read at an argument it is the launch memory.
-/
import proofs.«168417_j75204877353219_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result buffer holding the last boundary's
    contents and every argument its launch contents. -/
theorem run_named : θ_run defs (onTc (τ := τ) (main (F := F))) ⟨m, fun _ => 0, ρ⟩ (fun r => ∀ c : Dev nD,
      r.2.mem ((c.tc : Thread nD τ).loc main_v59) = W4 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v59 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The result buffer's last contents are the layer-2 region's output array after all its write-backs. -/
theorem W4_result (c : Dev nD) :
    W4 m ρ c (Proc.devRef .tc main_v59) = (dat1 (V3 m ρ) c).arrAt 5 cfg1.N :=
  W4_arr m ρ c 5

end Cert.KernelIdeal.RunNamed

end
-- ==== Proof.KernelHost.lean ====
/-
  The idealized kernel's host operations, as named functions of the arrays they read.

  Before the projection region the layer-1 weight W1 [64, 1024] is cut into its two halves, each transposed to
  [512, 64]. Between the regions the projection slab p [100000, 128] is cut into its self half pa = p[:, :64] and its
  neighbour half pb = p[:, 64:]; the neighbour rows of pb are gathered (an index below zero first wrapped by the row
  count, every start index then clamped into range by the gather itself), summed over the five samples from zero and
  divided by 5; the hidden features are max(pa + that mean, 0). The query rows and the query rows' neighbour rows of
  the hidden features are gathered the same way (the second again averaged over the five samples), and the layer-2
  weight's two halves and the classifier weight are transposed. Format changes between f32 and bf16 are written where
  the program has them; they are the identity on extended reals.
-/
import proofs.«168417_j75204877353219_2_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]

/-! ## The stages -/

/-- The first half of W1, transposed: entry (k, h) is W1[h, k]. -/
def w1aT (a1 : FVec F S64x1024 .f32) : FVec F S512x64 .bf16 :=
  truncf .bf16 (transpose S512x64 [1, 0] (extractStridedSlice S64x512 ![0, 0] a1 slices_S64x1024_S64x512_0_0) transposes_S64x512_S512x64_1_0) bitsLt_bf16_f32
/-- The second half of W1, transposed: entry (k, h) is W1[h, 512 + k]. -/
def w1bT (a1 : FVec F S64x1024 .f32) : FVec F S512x64 .bf16 :=
  truncf .bf16 (transpose S512x64 [1, 0] (extractStridedSlice S64x512 ![0, 512] a1 slices_S64x1024_S64x512_0_512) transposes_S64x512_S512x64_1_0) bitsLt_bf16_f32
/-- The first half of W2, transposed: entry (k, h) is W2[h, k]. -/
def w2aT (a2 : FVec F S64x128 .f32) : FVec F S64x64 .bf16 :=
  truncf .bf16 (transpose S64x64 [1, 0] (extractStridedSlice S64x64 ![0, 0] a2 slices_S64x128_S64x64_0_0) transposes_S64x64_S64x64_1_0) bitsLt_bf16_f32
/-- The second half of W2, transposed: entry (k, h) is W2[h, 64 + k]. -/
def w2bT (a2 : FVec F S64x128 .f32) : FVec F S64x64 .bf16 :=
  truncf .bf16 (transpose S64x64 [1, 0] (extractStridedSlice S64x64 ![0, 64] a2 slices_S64x128_S64x64_0_64) transposes_S64x64_S64x64_1_0) bitsLt_bf16_f32
/-- The classifier weight, transposed: entry (h, c) is Wc[c, h]. -/
def wcT (a3 : FVec F S16x64 .f32) : FVec F S64x16 .bf16 :=
  truncf .bf16 (transpose S64x16 [1, 0] a3 transposes_S16x64_S64x16_1_0) bitsLt_bf16_f32

/-- The neighbour table as gather start indices: a negative entry wrapped by the row count, one index per (node, sample). -/
def nbrIdx (a5 : IVec S100000x5 32) : IVec S100000x5x1 32 :=
  broadcastInDim S100000x5x1 ![0, 1] bcast_S100000x5_S100000x5x1_0_1
    (select (cmpi .slt a5 (broadcastInDim S100000x5 ![] bcast_S_S100000x5 (constantI S_ 32 0#32)))
      (addi a5 (broadcastInDim S100000x5 ![] bcast_S_S100000x5 (constantI S_ 32 100000#32))) a5)
/-- The query nodes as gather start indices. -/
def qIdx (a4 : IVec S16384 32) : IVec S16384x1 32 :=
  broadcastInDim S16384x1 ![0] bcast_S16384_S16384x1_0
    (select (cmpi .slt a4 (broadcastInDim S16384 ![] bcast_S_S16384 (constantI S_ 32 0#32)))
      (addi a4 (broadcastInDim S16384 ![] bcast_S_S16384 (constantI S_ 32 100000#32))) a4)
/-- The query nodes' neighbour rows of the table, as gather start indices. -/
def qNbrIdx (a4 : IVec S16384 32) (a5 : IVec S100000x5 32) : IVec S16384x5x1 32 :=
  broadcastInDim S16384x5x1 ![0, 1] bcast_S16384x5_S16384x5x1_0_1
    (select (cmpi .slt (Host.gather gather_S100000x5_S16384x1_S16384x5_1_0_n_n_0_1_15 a5 (qIdx a4)) (broadcastInDim S16384x5 ![] bcast_S_S16384x5 (constantI S_ 32 0#32)))
      (addi (Host.gather gather_S100000x5_S16384x1_S16384x5_1_0_n_n_0_1_15 a5 (qIdx a4)) (broadcastInDim S16384x5 ![] bcast_S_S16384x5 (constantI S_ 32 100000#32)))
      (Host.gather gather_S100000x5_S16384x1_S16384x5_1_0_n_n_0_1_15 a5 (qIdx a4)))

/-- The hidden features from the projection slab: max(pa + mean over the samples of the gathered rows of pb, 0). -/
def h1K (p : FVec F S100000x128 .bf16) (a5 : IVec S100000x5 32) : FVec F S100000x64 .bf16 :=
  truncf .bf16
    (maximumf
      (addf (extf .f32 (extractStridedSlice S100000x64 ![0, 0] p slices_S100000x128_S100000x64_0_0) bitsLt_bf16_f32)
        (Host.divf
          (Host.reduceAdd
            (extf .f32 (Host.gather gather_S100000x64_S100000x5x1_S100000x5x64_2_0_n_n_0_2_164
              (extractStridedSlice S100000x64 ![0, 64] p slices_S100000x128_S100000x64_0_64) (nbrIdx a5)) bitsLt_bf16_f32)
            (constant S_ .f32 0x00000000#32) reducesTo_S100000x5x64_S100000x64_d1 h_S_)
          (broadcastInDim S100000x64 ![] bcast_S_S100000x64 (constant S_ .f32 0x40A00000#32))))
      (broadcastInDim S100000x64 ![] bcast_S_S100000x64 (constant S_ .f32 0x00000000#32)))
    bitsLt_bf16_f32
/-- The query rows of the hidden features. -/
def self2K (p : FVec F S100000x128 .bf16) (a4 : IVec S16384 32) (a5 : IVec S100000x5 32) : FVec F S16384x64 .bf16 :=
  Host.gather gather_S100000x64_S16384x1_S16384x64_1_0_n_n_0_1_164 (h1K p a5) (qIdx a4)
/-- The mean over the samples of the query rows' neighbour rows of the hidden features. -/
def neigh2K (p : FVec F S100000x128 .bf16) (a4 : IVec S16384 32) (a5 : IVec S100000x5 32) : FVec F S16384x64 .bf16 :=
  truncf .bf16
    (Host.divf
      (Host.reduceAdd
        (extf .f32 (Host.gather gather_S100000x64_S16384x5x1_S16384x5x64_2_0_n_n_0_2_164 (h1K p a5) (qNbrIdx a4 a5)) bitsLt_bf16_f32)
        (constant S_ .f32 0x00000000#32) reducesTo_S16384x5x64_S16384x64_d1 h_S_)
      (broadcastInDim S16384x64 ![] bcast_S_S16384x64 (constant S_ .f32 0x40A00000#32)))
    bitsLt_bf16_f32

/-! ## The buffers at the two regions' entries -/

variable (m : (ℓ : Loc nD τ sig) → Buf (Elt F) ℓ) (ρ : Dev nD → PrngReg)

/-- The projection region finds the features as launched. -/
theorem V1_features (c : Dev nD) : V1 m ρ c main_arg0 = m ((c : Thread nD τ).loc main_arg0) := by
  show StableHlo.after hostOps0 (W0 m ρ c) (Proc.devRef .tc main_arg0) = _
  after_results
  try rfl
/-- The projection region's second operand is the first half of W1, transposed. -/
theorem V1_w1a (c : Dev nD) : V1 m ρ c main_v2 = w1aT (m ((c : Thread nD τ).loc main_arg1)) := by
  show StableHlo.after hostOps0 (W0 m ρ c) (Proc.devRef .tc main_v2) = _
  after_results
  try rfl
/-- The projection region's third operand is the second half of W1, transposed. -/
theorem V1_w1b (c : Dev nD) : V1 m ρ c main_v5 = w1bT (m ((c : Thread nD τ).loc main_arg1)) := by
  show StableHlo.after hostOps0 (W0 m ρ c) (Proc.devRef .tc main_v5) = _
  after_results
  try rfl

/-- Argument 2 is still at its launch contents when the middle host stretch starts. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 is still at its launch contents when the middle host stretch starts. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 is still at its launch contents when the middle host stretch starts. -/
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 is still at its launch contents when the middle host stretch starts. -/
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The slab the projection region leaves is its output array after all its write-backs. -/
theorem W2_slab (c : Dev nD) : W2 m ρ c (Proc.devRef .tc main_v6) = (dat0 (V1 m ρ) c).arrAt 3 cfg0.N :=
  W2_arr m ρ c 3

set_option maxHeartbeats 4000000 in
/-- The layer-2 region's first operand: the query rows of the hidden features. -/
theorem V3_self2 (c : Dev nD) : V3 m ρ c main_v31
    = self2K (W2 m ρ c (Proc.devRef .tc main_v6)) (m ((c : Thread nD τ).loc main_arg4)) (m ((c : Thread nD τ).loc main_arg5)) := by
  rw [← W2_main_arg4 m ρ c, ← W2_main_arg5 m ρ c]
  show StableHlo.after hostOps1 (W2 m ρ c) (Proc.devRef .tc main_v31) = _
  after_results_simp
  try rfl
set_option maxHeartbeats 4000000 in
/-- The layer-2 region's second operand: the averaged neighbour rows of the hidden features. -/
theorem V3_neigh2 (c : Dev nD) : V3 m ρ c main_v50
    = neigh2K (W2 m ρ c (Proc.devRef .tc main_v6)) (m ((c : Thread nD τ).loc main_arg4)) (m ((c : Thread nD τ).loc main_arg5)) := by
  rw [← W2_main_arg4 m ρ c, ← W2_main_arg5 m ρ c]
  show StableHlo.after hostOps1 (W2 m ρ c) (Proc.devRef .tc main_v50) = _
  after_results_simp
  try rfl
set_option maxHeartbeats 4000000 in
/-- The layer-2 region's third operand: the first half of W2, transposed. -/
theorem V3_w2a (c : Dev nD) : V3 m ρ c main_v53 = w2aT (m ((c : Thread nD τ).loc main_arg2)) := by
  rw [← W2_main_arg2 m ρ c]
  show StableHlo.after hostOps1 (W2 m ρ c) (Proc.devRef .tc main_v53) = _
  after_results_simp
  try rfl
set_option maxHeartbeats 4000000 in
/-- The layer-2 region's fourth operand: the second half of W2, transposed. -/
theorem V3_w2b (c : Dev nD) : V3 m ρ c main_v56 = w2bT (m ((c : Thread nD τ).loc main_arg2)) := by
  rw [← W2_main_arg2 m ρ c]
  show StableHlo.after hostOps1 (W2 m ρ c) (Proc.devRef .tc main_v56) = _
  after_results_simp
  try rfl
set_option maxHeartbeats 4000000 in
/-- The layer-2 region's fifth operand: the classifier weight, transposed. -/
theorem V3_wc (c : Dev nD) : V3 m ρ c main_v58 = wcT (m ((c : Thread nD τ).loc main_arg3)) := by
  rw [← W2_main_arg3 m ρ c]
  show StableHlo.after hostOps1 (W2 m ρ c) (Proc.devRef .tc main_v58) = _
  after_results_simp
  try rfl

end Cert.KernelIdeal.Hand

end
-- ==== Proof.Spec.lean ====
/-
  The mathematics of the two-layer mean-aggregating graph network, free of any program.

  Both programs compute, for every node n, hidden features
      h1[n, ·] = relu( [ x[n, ·] , mean_i x[g(n, i), ·] ] · W1ᵀ )
  and for every query row b the scores
      out[b, ·] = relu( [ S[b, ·] , N[b, ·] ] · W2ᵀ ) · Wcᵀ ,
  where [u, v] is concatenation along the feature axis and the mean of five rows is "zero plus their sum, divided
  by the number 5". One arrangement contracts the concatenated row against the whole weight; the other contracts
  each half against its half of the weight and adds, and in layer 1 it takes the mean AFTER contracting the
  neighbour rows (the projection commutes with the mean). Splitting a contraction over a concatenated axis is
  associativity of a finite sum and holds on all extended reals; moving the division by 5 and the sum over the five
  neighbours across the contraction is distributivity, which holds for real numbers and is used only there.
-/
import Idealize.ShloMosaic.PureOps.Ideal
import Idealize.ShloMosaic.Lib.ValueIdx
import Idealize.ShloMosaic.PureOps.Ideal.Laws

noncomputable section

open scoped BigOperators

namespace Cert.Spec

open Idealize.ShloMosaic Idealize.ShloMosaic.ValueIdx

/-- A rank-2 array of extended reals. -/
abbrev Arr (a b : Nat) : Type := (⟨2, ![a, b]⟩ : Shape).Idx → EReal

/-- The float word of 5.0 is the real number 5. -/
theorem five_eq : Ideal.ofBits .f32 0x40A00000#32 = ((5 : ℝ) : EReal) := by
  simp [Ideal.ofBits, Ideal.ieee, -EReal.coe_mul]; norm_num

/-- The zero both programs start a sum from and clamp a pre-activation at. -/
abbrev Z : EReal := Ideal.ofBits .f32 0x00000000#32

theorem Z_eq : Z = 0 := Ideal.ofBits_zero_f32

/-- The mean of five values as both programs spell it: zero plus their sum, divided by 5. -/
def mean5 (x : Fin 5 → EReal) : EReal := Ideal.div (Z + ∑ i, x i) (Ideal.ofBits .f32 0x40A00000#32)

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mean of five reals is a real: their sum times one fifth. -/
theorem mean5_coe (y : Fin 5 → ℝ) : mean5 (fun i => (y i : EReal)) = (((∑ i, y i) * (1 / 5) : ℝ) : EReal) := by
  unfold mean5
  rw [Z_eq, zero_add, five_eq, Ideal.div_coe (by norm_num : (5 : ℝ) ≠ 0), ← coe_sum, ← EReal.coe_mul]

/-- THE LAW OF LAYER 1: contracting the mean of five real rows against a real weight column is the mean of the five
    contractions. -/
theorem mean_contract {K : Nat} (x : Fin 5 → Fin K → ℝ) (w : Fin K → ℝ) :
    ∑ k : Fin K, mean5 (fun i => (x i k : EReal)) * (w k : EReal)
      = mean5 (fun i => ∑ k : Fin K, (x i k : EReal) * (w k : EReal)) := by
  have hr : ∀ i, (∑ k : Fin K, (x i k : EReal) * (w k : EReal)) = ((∑ k : Fin K, x i k * w k : ℝ) : EReal) := fun i => by
    rw [coe_sum]; exact Finset.sum_congr rfl fun k _ => (EReal.coe_mul _ _).symm
  simp only [hr, mean5_coe]
  rw [show (∑ k : Fin K, (((∑ i, x i k) * (1 / 5) : ℝ) : EReal) * (w k : EReal))
      = ((∑ k : Fin K, (∑ i, x i k) * (1 / 5) * w k : ℝ) : EReal) from by
    rw [coe_sum]; exact Finset.sum_congr rfl fun k _ => (EReal.coe_mul _ _).symm]
  refine congrArg (fun t : ℝ => (t : EReal)) ?_
  simp only [Finset.sum_mul]
  rw [Finset.sum_comm]
  exact Finset.sum_congr rfl fun i _ => Finset.sum_congr rfl fun k _ => by ring

/-- A sum over 1024 positions is the sum over the first 512 plus the sum over the last 512. -/
theorem sum_1024 (f : Fin 1024 → EReal) :
    ∑ k, f k = ∑ k : Fin 512, f ⟨k.val, by omega⟩ + ∑ k : Fin 512, f ⟨512 + k.val, by omega⟩ :=
  Fin.sum_univ_add (a := 512) (b := 512) f

/-- A sum over 128 positions is the sum over the first 64 plus the sum over the last 64. -/
theorem sum_128 (f : Fin 128 → EReal) :
    ∑ k, f k = ∑ k : Fin 64, f ⟨k.val, by omega⟩ + ∑ k : Fin 64, f ⟨64 + k.val, by omega⟩ :=
  Fin.sum_univ_add (a := 64) (b := 64) f

/-! ## Layer 1 -/

/-- Hidden features, one contraction of the concatenated row [x[n], mean of neighbour rows] against row h of W1. -/
def h1Whole (A : Arr 100000 512) (W1 : Arr 64 1024) (g : Fin 100000 → Fin 5 → Fin 100000) (n : Fin 100000) (h : Fin 64) : EReal :=
  max (∑ k : Fin 1024, (if hk : k.val < 512 then A (ix2 n ⟨k.val, hk⟩)
      else mean5 fun i => A (ix2 (g n i) ⟨k.val - 512, by omega⟩)) * W1 (ix2 h k)) Z

/-- Hidden features, projections first: x[n] against the first half of row h of W1, plus the mean over the neighbours
    of their rows against the second half. -/
def h1Split (A : Arr 100000 512) (W1 : Arr 64 1024) (g : Fin 100000 → Fin 5 → Fin 100000) (n : Fin 100000) (h : Fin 64) : EReal :=
  max ((∑ k : Fin 512, A (ix2 n k) * W1 (ix2 h ⟨k.val, by omega⟩))
    + mean5 fun i => ∑ k : Fin 512, A (ix2 (g n i) k) * W1 (ix2 h ⟨512 + k.val, by omega⟩)) Z

/-- The two arrangements of layer 1 agree when the features and the weight are real numbers. -/
theorem h1Split_eq_h1Whole (A : Arr 100000 512) (W1 : Arr 64 1024) (g : Fin 100000 → Fin 5 → Fin 100000)
    (hA : ∀ i, ∃ r : ℝ, A i = (r : EReal)) (hW : ∀ i, ∃ r : ℝ, W1 i = (r : EReal)) (n : Fin 100000) (h : Fin 64) :
    h1Split A W1 g n h = h1Whole A W1 g n h := by
  unfold h1Split h1Whole
  refine congrArg (fun t : EReal => max t Z) ?_
  rw [sum_1024]
  refine congrArg₂ (fun s t : EReal => s + t) ?_ ?_
  · refine Finset.sum_congr rfl fun k _ => ?_
    rw [dif_pos (show (⟨k.val, by omega⟩ : Fin 1024).val < 512 from k.isLt)]
  · have e : ∀ k : Fin 512, (if hk : (⟨512 + k.val, by omega⟩ : Fin 1024).val < 512 then A (ix2 n ⟨(⟨512 + k.val, by omega⟩ : Fin 1024).val, hk⟩)
        else mean5 fun i => A (ix2 (g n i) ⟨(⟨512 + k.val, by omega⟩ : Fin 1024).val - 512, by omega⟩))
        = mean5 fun i => A (ix2 (g n i) k) := fun k => by
      rw [dif_neg (show ¬ (512 + k.val < 512) from by omega)]
      congr 1; funext i; congr 2; exact Fin.ext (by simp)
    simp only [e]
    choose a ha using hA
    choose w hw using hW
    simp only [ha, hw]
    exact (mean_contract (fun i k => a (ix2 (g n i) k)) (fun k => w (ix2 h ⟨512 + k.val, by omega⟩))).symm

/-! ## Layer 2 and the classifier -/

/-- Scores, one contraction of the concatenated row [S[b], N[b]] against each row of W2, clamped at zero, then against
    row c of Wc. -/
def outWhole (S N : Arr 16384 64) (W2 : Arr 64 128) (Wc : Arr 16 64) (b : Fin 16384) (c : Fin 16) : EReal :=
  ∑ h : Fin 64, max (∑ k : Fin 128, (if hk : k.val < 64 then S (ix2 b ⟨k.val, hk⟩)
      else N (ix2 b ⟨k.val - 64, by omega⟩)) * W2 (ix2 h k)) Z * Wc (ix2 c h)

/-- Scores, each half of the row against its half of W2, the two contractions added. -/
def outSplit (S N : Arr 16384 64) (W2 : Arr 64 128) (Wc : Arr 16 64) (b : Fin 16384) (c : Fin 16) : EReal :=
  ∑ h : Fin 64, max ((∑ k : Fin 64, S (ix2 b k) * W2 (ix2 h ⟨k.val, by omega⟩))
    + ∑ k : Fin 64, N (ix2 b k) * W2 (ix2 h ⟨64 + k.val, by omega⟩)) Z * Wc (ix2 c h)

/-- The two arrangements of layer 2 agree on all extended reals. -/
theorem outSplit_eq_outWhole (S N : Arr 16384 64) (W2 : Arr 64 128) (Wc : Arr 16 64) (b : Fin 16384) (c : Fin 16) :
    outSplit S N W2 Wc b c = outWhole S N W2 Wc b c := by
  unfold outSplit outWhole
  refine Finset.sum_congr rfl fun h _ => ?_
  refine congrArg (fun t : EReal => max t Z * Wc (ix2 c h)) ?_
  rw [sum_128]
  refine congrArg₂ (fun s t : EReal => s + t) ?_ ?_
  · refine Finset.sum_congr rfl fun k _ => ?_
    rw [dif_pos (show (⟨k.val, by omega⟩ : Fin 128).val < 64 from k.isLt)]
  · refine Finset.sum_congr rfl fun k _ => ?_
    rw [dif_neg (show ¬ (64 + k.val < 64) from by omega)]
    congr 3; exact Fin.ext (by simp)

end Cert.Spec

end
-- ==== Proof.KernelArrays.lean ====
/-
  The two arrays the idealized kernel's regions produce, as functions of the arrays they read.

  The projection slab [100000, 128]: entry (n, q) is feature row n contracted with column q of the first transposed
  weight half for q < 64, with column q − 64 of the second otherwise. The scores [16384, 16]: entry (b, c) is the
  contraction over the 64 hidden units h of max(S[b]·Wa[:, h] + N[b]·Wb[:, h], 0) with Wc[h, c].
-/
import proofs.«168417_j75204877353219_2_alg».proof.KernelIdeal
import proofs.«168417_j75204877353219_2_alg».proof.Proof.Spec
import Idealize.ShloMosaic.Lib.ValueIdx

noncomputable section

open scoped BigOperators

namespace Cert.KernelIdeal.Arrays

open Cert.KernelIdeal Idealize.ShloMosaic Idealize.ShloMosaic.ValueIdx

/-- Entry (n, q) of the slab: feature row n against column q of the first weight half, or column q − 64 of the second. -/
def projAt (A : FVec Ideal S100000x512 .f32) (Wa Wb : FVec Ideal S512x64 .bf16) (n : Fin 100000) (q : Fin 128) : EReal :=
  if h : q.val < 64 then ∑ k : Fin 512, A (ix2 n k) * Wa (ix2 k ⟨q.val, h⟩)
  else ∑ k : Fin 512, A (ix2 n k) * Wb (ix2 k ⟨q.val - 64, by omega⟩)

/-- The slab as an array. -/
def projSlab (A : FVec Ideal S100000x512 .f32) (Wa Wb : FVec Ideal S512x64 .bf16) : FVec Ideal S100000x128 .bf16 :=
  fun i => projAt A Wa Wb (i 0) (i 1)

/-- Entry (b, c) of the scores from the query rows S, the averaged neighbour rows N, the two transposed halves of the
    layer-2 weight and the transposed classifier weight. -/
def scoreAt (S N : FVec Ideal S16384x64 .bf16) (Wa Wb : FVec Ideal S64x64 .bf16) (Wc : FVec Ideal S64x16 .bf16)
    (b : Fin 16384) (c : Fin 16) : EReal :=
  ∑ h : Fin 64, max ((∑ k : Fin 64, S (ix2 b k) * Wa (ix2 k h)) + ∑ k : Fin 64, N (ix2 b k) * Wb (ix2 k h)) Cert.Spec.Z * Wc (ix2 h c)

/-- The scores as an array. -/
def scores (S N : FVec Ideal S16384x64 .bf16) (Wa Wb : FVec Ideal S64x64 .bf16) (Wc : FVec Ideal S64x16 .bf16) :
    FVec Ideal S16384x16 .f32 :=
  fun i => scoreAt S N Wa Wb Wc (i 0) (i 1)

end Cert.KernelIdeal.Arrays

end
-- ==== Proof.KernelPayload.lean ====
import proofs.«168417_j75204877353219_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«168417_j75204877353219_2_alg».proof.Proof.Spec
noncomputable section
namespace Cert.KernelIdeal.Payload
open Idealize.ShloMosaic Idealize.ShloMosaic.ValueIdx Cert.KernelIdeal Cert.KernelIdeal.Gen
open scoped BigOperators

/-- A matrix product `M×K` by `K×N` into a zero accumulator, read at the index `(r, q)`: the sum over the one
    contracted coordinate `k` of `lhs (r, k) * rhs (k, q)`. The dimension numbers enter through four facts: each
    operand has one contracting axis (the left's second, the right's first), and the result's two coordinates are
    the left operand's first and the right operand's second. -/
theorem matmul_plain_apply {M K N : Nat} (D : DotDims ⟨2, ![M, K]⟩ ⟨2, ![K, N]⟩ ⟨2, ![M, N]⟩)
    (hlc : D.lhsContracting = [1]) (hrc : D.rhsContracting = [0])
    (hr : D.contr.rank = 1) (hs : D.contr.size ⟨0, by omega⟩ = K)
    (hl0 : ∀ j k, (D.lhsIdx j k 0).val = (j 0).val) (hr1 : ∀ j k, (D.rhsIdx j k 1).val = (j 1).val)
    {φ₁ φ₂ : FTy} (lhs : FVec Ideal ⟨2, ![M, K]⟩ φ₁) (rhs : FVec Ideal ⟨2, ![K, N]⟩ φ₂) (r : Fin M) (q : Fin N) :
    matmul D none lhs rhs (constant (F := Ideal) ⟨2, ![M, N]⟩ .f32 0x00000000#32) (ix2 r q)
      = ∑ k : Fin K, lhs (ix2 r k) * rhs (ix2 k q) := by
  refine (Ideal.matmul_constant_zero_apply D none lhs rhs (ix2 r q)).trans ?_
  rw [← Equiv.sum_comp (contrEquiv1 D K hr hs).symm]
  refine Finset.sum_congr rfl fun k _ => ?_
  have hk := contrEquiv1_symm_val D K hr hs k
  have el : D.lhsIdx (ix2 r q) ((contrEquiv1 D K hr hs).symm k) = ix2 r k := funext fun a => Fin.ext (by
    match a with
    | ⟨0, _⟩ => exact hl0 _ _
    | ⟨1, _⟩ => exact (D.lhsIdx_val_of_single hlc _ _).trans hk)
  have er : D.rhsIdx (ix2 r q) ((contrEquiv1 D K hr hs).symm k) = ix2 k q := funext fun a => Fin.ext (by
    match a with
    | ⟨0, _⟩ => exact (D.rhsIdx_val_of_single hrc _ _).trans hk
    | ⟨1, _⟩ => exact hr1 _ _)
  rw [el, er]

/-! ### The first kernel: the projection, two products side by side -/

/-- The dimension numbers of the projection's two products: `5000×512` by `512×64`. -/
abbrev D0 : DotDims S5000x512 S512x64 S5000x64 := dot_S5000x512_S512x64_S5000x64_1_0_0_1_n_n

/-- The result's row is the left operand's row. -/
theorem D0_lhs0 (j : S5000x64.Idx) (k : D0.contr.Idx) : (D0.lhsIdx j k 0).val = (j 0).val := by
  unfold DotDims.lhsIdx
  rw [dif_neg (show ¬(0 : Fin S5000x512.rank) ∈ D0.lhsBatch by decide),
    dif_pos (show (0 : Fin S5000x512.rank) ∈ D0.lhsNonContracting by decide)]
  rfl
/-- The result's column is the right operand's column. -/
theorem D0_rhs1 (j : S5000x64.Idx) (k : D0.contr.Idx) : (D0.rhsIdx j k 1).val = (j 1).val := by
  unfold DotDims.rhsIdx
  rw [dif_neg (show ¬(1 : Fin S512x64.rank) ∈ D0.rhsBatch by decide),
    dif_pos (show (1 : Fin S512x64.rank) ∈ D0.rhsNonContracting by decide)]
  rfl

/-- One product of the projection at an index. -/
theorem D0_apply {φ₁ φ₂ : FTy} (lhs : FVec Ideal S5000x512 φ₁) (rhs : FVec Ideal S512x64 φ₂) (r : Fin 5000) (q : Fin 64) :
    matmul D0 none lhs rhs (constant (F := Ideal) S5000x64 .f32 0x00000000#32) (ix2 r q)
      = ∑ k : Fin 512, lhs (ix2 r k) * rhs (ix2 k q) :=
  matmul_plain_apply D0 rfl rfl rfl rfl D0_lhs0 D0_rhs1 lhs rhs r q

theorem proj_left (x0 : Vec Ideal S5000x512 .f32) (x1 x2 : Vec Ideal S512x64 .bf16) (r : Fin 5000) (q : Fin 64) :
    k0_pay1 x0 x1 x2 (ix2 r (⟨q.val, by omega⟩ : Fin 128)) = ∑ k : Fin 512, x0 (ix2 r k) * x1 (ix2 k q) := by
  unfold k0_pay1
  rw [shapeCast_self, shapeCast_self]
  refine (truncf_apply (φ := .f32) (ψ := .bf16) _ bitsLt_bf16_f32 _).trans ?_
  -- the column lies in the first piece of the concatenation
  refine (concatenate_pair_apply_left 1 _ _ concatenates_S5000x64_S5000x64_S5000x128_d1 _ rfl (ix2 r q) ?_).trans ?_
  · intro b
    match b with
    | ⟨0, _⟩ => rfl
    | ⟨1, _⟩ => rfl
  · exact D0_apply _ _ r q

theorem proj_right (x0 : Vec Ideal S5000x512 .f32) (x1 x2 : Vec Ideal S512x64 .bf16) (r : Fin 5000) (q : Fin 64) :
    k0_pay1 x0 x1 x2 (ix2 r (⟨64 + q.val, by omega⟩ : Fin 128)) = ∑ k : Fin 512, x0 (ix2 r k) * x2 (ix2 k q) := by
  unfold k0_pay1
  rw [shapeCast_self, shapeCast_self]
  refine (truncf_apply (φ := .f32) (ψ := .bf16) _ bitsLt_bf16_f32 _).trans ?_
  -- the column lies in the second piece of the concatenation, 64 columns in
  refine (concatenate_pair_apply_right 1 _ _ concatenates_S5000x64_S5000x64_S5000x128_d1 _ rfl rfl (ix2 r q) ?_ ?_).trans ?_
  · intro b hb
    match b, hb with
    | ⟨0, _⟩, _ => rfl
    | ⟨1, _⟩, hb => exact absurd rfl hb
  · show q.val + 64 = 64 + q.val
    omega
  · exact D0_apply _ _ r q

/-! ### The second kernel: two products added, clamped at zero, then a third product -/

/-- The dimension numbers of the hidden layer's two products: `8192×64` by `64×64`. -/
abbrev D1 : DotDims S8192x64 S64x64 S8192x64 := dot_S8192x64_S64x64_S8192x64_1_0_0_1_n_n

theorem D1_lhs0 (j : S8192x64.Idx) (k : D1.contr.Idx) : (D1.lhsIdx j k 0).val = (j 0).val := by
  unfold DotDims.lhsIdx
  rw [dif_neg (show ¬(0 : Fin S8192x64.rank) ∈ D1.lhsBatch by decide),
    dif_pos (show (0 : Fin S8192x64.rank) ∈ D1.lhsNonContracting by decide)]
  rfl
theorem D1_rhs1 (j : S8192x64.Idx) (k : D1.contr.Idx) : (D1.rhsIdx j k 1).val = (j 1).val := by
  unfold DotDims.rhsIdx
  rw [dif_neg (show ¬(1 : Fin S64x64.rank) ∈ D1.rhsBatch by decide),
    dif_pos (show (1 : Fin S64x64.rank) ∈ D1.rhsNonContracting by decide)]
  rfl

/-- One product of the hidden layer at an index. -/
theorem D1_apply {φ₁ φ₂ : FTy} (lhs : FVec Ideal S8192x64 φ₁) (rhs : FVec Ideal S64x64 φ₂) (r : Fin 8192) (q : Fin 64) :
    matmul D1 none lhs rhs (constant (F := Ideal) S8192x64 .f32 0x00000000#32) (ix2 r q)
      = ∑ k : Fin 64, lhs (ix2 r k) * rhs (ix2 k q) :=
  matmul_plain_apply D1 rfl rfl rfl rfl D1_lhs0 D1_rhs1 lhs rhs r q

/-- The dimension numbers of the output product: `8192×64` by `64×16`. -/
abbrev D2 : DotDims S8192x64 S64x16 S8192x16 := dot_S8192x64_S64x16_S8192x16_1_0_0_1_n_n

theorem D2_lhs0 (j : S8192x16.Idx) (k : D2.contr.Idx) : (D2.lhsIdx j k 0).val = (j 0).val := by
  unfold DotDims.lhsIdx
  rw [dif_neg (show ¬(0 : Fin S8192x64.rank) ∈ D2.lhsBatch by decide),
    dif_pos (show (0 : Fin S8192x64.rank) ∈ D2.lhsNonContracting by decide)]
  rfl
theorem D2_rhs1 (j : S8192x16.Idx) (k : D2.contr.Idx) : (D2.rhsIdx j k 1).val = (j 1).val := by
  unfold DotDims.rhsIdx
  rw [dif_neg (show ¬(1 : Fin S64x16.rank) ∈ D2.rhsBatch by decide),
    dif_pos (show (1 : Fin S64x16.rank) ∈ D2.rhsNonContracting by decide)]
  rfl

/-- The output product at an index. -/
theorem D2_apply {φ₁ φ₂ : FTy} (lhs : FVec Ideal S8192x64 φ₁) (rhs : FVec Ideal S64x16 φ₂) (r : Fin 8192) (c : Fin 16) :
    matmul D2 none lhs rhs (constant (F := Ideal) S8192x16 .f32 0x00000000#32) (ix2 r c)
      = ∑ k : Fin 64, lhs (ix2 r k) * rhs (ix2 k c) :=
  matmul_plain_apply D2 rfl rfl rfl rfl D2_lhs0 D2_rhs1 lhs rhs r c

theorem layer2 (x0 x1 : Vec Ideal S8192x64 .bf16) (x2 x3 : Vec Ideal S64x64 .bf16) (x4 : Vec Ideal S64x16 .bf16) (r : Fin 8192) (c : Fin 16) :
    k1_pay1 x0 x1 x2 x3 x4 (ix2 r c)
      = ∑ h : Fin 64, max ((∑ k : Fin 64, x0 (ix2 r k) * x2 (ix2 k h)) + ∑ k : Fin 64, x1 (ix2 r k) * x3 (ix2 k h)) Cert.Spec.Z * x4 (ix2 h c) := by
  unfold k1_pay1
  rw [shapeCast_self, shapeCast_self, shapeCast_self, shapeCast_self, shapeCast_self]
  refine (D2_apply (φ₁ := .bf16) (φ₂ := .bf16) _ x4 r c).trans ?_
  refine Finset.sum_congr rfl fun h _ => ?_
  refine congrArg (· * x4 (ix2 h c)) ?_
  -- the hidden unit `h` of row `r`: the format change is the identity, the clamp is `max · 0`
  show max (matmul D1 none x0 x2 (constant (F := Ideal) S8192x64 .f32 0x00000000#32) (ix2 r h)
      + matmul D1 none x1 x3 (constant (F := Ideal) S8192x64 .f32 0x00000000#32) (ix2 r h)) Cert.Spec.Z = _
  rw [D1_apply (φ₁ := .bf16) (φ₂ := .bf16) x0 x2 r h, D1_apply (φ₁ := .bf16) (φ₂ := .bf16) x1 x3 r h]

end Cert.KernelIdeal.Payload
-- ==== Proof.KernelRegions.lean ====
/-
  What each region's output array holds after all its write-backs, as one function of the arrays the region finds.

  The projection region walks the 100000 feature rows in 20 blocks of 5000. At block t its body multiplies the block's
  rows by the two transposed weight halves and stores the two [5000, 64] products side by side; the block written
  back is rows 5000 t … 5000 t + 4999 of the slab whose entry (n, q) is the contraction of feature row n with column q
  of the first half for q < 64, with column q − 64 of the second half otherwise. The 20 blocks tile the slab: row n
  lies in block n / 5000.

  The layer-2 region walks the 16384 query rows in 2 blocks of 8192 and writes, for row b and class c,
  the contraction over the 64 hidden units h of max(S[b]·Wa[:, h] + N[b]·Wb[:, h], 0) with Wc[h, c].
  Row b lies in block b / 8192.
-/
import proofs.«168417_j75204877353219_2_alg».proof.Proof.Gen.KernelIdeal.Frame
import proofs.«168417_j75204877353219_2_alg».proof.Proof.KernelPayload
import proofs.«168417_j75204877353219_2_alg».proof.Proof.KernelArrays
import proofs.«168417_j75204877353219_2_alg».proof.Proof.Spec
import Idealize.ShloMosaic.Lib.Pipeline.Value
import Idealize.ShloMosaic.Lib.ValueIdx

set_option maxRecDepth 16384

noncomputable section

open scoped BigOperators

namespace Cert.KernelIdeal.Regions

open Cert.KernelIdeal Cert.KernelIdeal.Gen Cert.KernelIdeal.Arrays
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## The projection slab -/

/-- One block of the body's result is the matching rows of the slab: x0 holds rows 5000 T … of the features, x1 and x2
    the two weight halves. -/
theorem slab_block (A : FVec Ideal S100000x512 .f32) (Wa Wb : FVec Ideal S512x64 .bf16)
    (x0 : Vec Ideal S5000x512 .f32) (x1 x2 : Vec Ideal S512x64 .bf16) (T : Nat)
    (h0 : ∀ (r : Fin 5000) (k : Fin 512) (i : S100000x512.Idx), (i 0).val = T * 5000 + r.val → (i 1).val = k.val → x0 (ix2 r k) = A i)
    (h1 : ∀ y, x1 y = Wa y) (h2 : ∀ y, x2 y = Wb y)
    (j : S5000x128.Idx) (n : Fin 100000) (q : Fin 128) (hn : n.val = T * 5000 + (j 0).val) (hq : q.val = (j 1).val) :
    k0_pay1 x0 x1 x2 j = projAt A Wa Wb n q := by
  obtain ⟨r, q', rfl⟩ : ∃ (r : Fin 5000) (q' : Fin 128), j = ix2 r q' := ⟨j 0, j 1, eq_ix2 j⟩
  have hq' : q.val = q'.val := hq
  have hn' : n.val = T * 5000 + r.val := hn
  unfold projAt
  by_cases h : q.val < 64
  · rw [dif_pos h]
    refine (show k0_pay1 x0 x1 x2 (ix2 r q') = k0_pay1 x0 x1 x2 (ix2 r (⟨(⟨q.val, h⟩ : Fin 64).val, by omega⟩ : Fin 128)) from
      congrArg (fun z : Fin 128 => k0_pay1 x0 x1 x2 (ix2 r z)) (Fin.ext hq'.symm)).trans ?_
    refine (Payload.proj_left x0 x1 x2 r ⟨q.val, h⟩).trans ?_
    refine Finset.sum_congr rfl fun k _ => ?_
    rw [h0 r k (ix2 n k) hn' rfl, h1]
  · rw [dif_neg h]
    refine (show k0_pay1 x0 x1 x2 (ix2 r q') = k0_pay1 x0 x1 x2 (ix2 r (⟨64 + (⟨q.val - 64, by omega⟩ : Fin 64).val, by omega⟩ : Fin 128)) from
      congrArg (fun z : Fin 128 => k0_pay1 x0 x1 x2 (ix2 r z)) (Fin.ext (by show q'.val = 64 + (q.val - 64); omega))).trans ?_
    refine (Payload.proj_right x0 x1 x2 r ⟨q.val - 64, by omega⟩).trans ?_
    refine Finset.sum_congr rfl fun k _ => ?_
    rw [h0 r k (ix2 n k) hn' rfl, h2]

/-! ## The scores -/

/-- One block of the body's result is the matching rows of the scores. -/
theorem score_block (S N : FVec Ideal S16384x64 .bf16) (Wa Wb : FVec Ideal S64x64 .bf16) (Wc : FVec Ideal S64x16 .bf16)
    (x0 x1 : Vec Ideal S8192x64 .bf16) (x2 x3 : Vec Ideal S64x64 .bf16) (x4 : Vec Ideal S64x16 .bf16) (T : Nat)
    (h0 : ∀ (r : Fin 8192) (k : Fin 64) (i : S16384x64.Idx), (i 0).val = T * 8192 + r.val → (i 1).val = k.val → x0 (ix2 r k) = S i)
    (h1 : ∀ (r : Fin 8192) (k : Fin 64) (i : S16384x64.Idx), (i 0).val = T * 8192 + r.val → (i 1).val = k.val → x1 (ix2 r k) = N i)
    (h2 : ∀ y, x2 y = Wa y) (h3 : ∀ y, x3 y = Wb y) (h4 : ∀ y, x4 y = Wc y)
    (j : S8192x16.Idx) (b : Fin 16384) (c : Fin 16) (hb : b.val = T * 8192 + (j 0).val) (hc : c.val = (j 1).val) :
    k1_pay1 x0 x1 x2 x3 x4 j = scoreAt S N Wa Wb Wc b c := by
  obtain ⟨r, c', rfl⟩ : ∃ (r : Fin 8192) (c' : Fin 16), j = ix2 r c' := ⟨j 0, j 1, eq_ix2 j⟩
  obtain rfl : c = c' := Fin.ext hc
  have hb' : b.val = T * 8192 + r.val := hb
  unfold scoreAt
  refine (Payload.layer2 x0 x1 x2 x3 x4 r c).trans ?_
  refine Finset.sum_congr rfl fun h _ => ?_
  rw [h4]
  refine congrArg (fun z : EReal => max z Cert.Spec.Z * Wc (ix2 h c)) ?_
  refine congrArg₂ (fun s t : EReal => s + t) ?_ ?_
  · refine Finset.sum_congr rfl fun k _ => ?_
    rw [h0 r k (ix2 b k) hb' rfl, h2]
  · refine Finset.sum_congr rfl fun k _ => ?_
    rw [h1 r k (ix2 b k) hb' rfl, h3]

/-! ## From blocks to arrays -/

variable (V : (c : Dev nD) → (b : Ref sig .tc) → Buf (Elt Ideal) ((c : Thread nD τ).loc b))

/-- The projection region's index maps over its grid: the features and the slab move one block of rows per point,
    the weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The layer-2 region's index maps over its grid. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t of the projection region writes back is block t of the slab of the arrays the region finds. -/
theorem flushed0 (c : Dev nD) (t : Fin cfg0.N) :
    (dat0 V c).flushed 3 t = ((cfg0.win 3).blk t).view.read (Elt Ideal) (projSlab (V c main_arg0) (V c main_v2) (V c main_v5)) := by
  show (cfg0.win 3).cut (grid0.coords t) ((dat0 V c).after 3 t) = _
  rw [after0_3]
  unfold out0_3
  rw [View.canon_unit_zero hz]
  simp only [View.ld_unit_zero (S := S5000x512) hz, View.ld_unit_zero (S := S512x64) hz]
  obtain ⟨e00, e01, e10, e11, e20, e21, e30, e31⟩ := idx_facts0 t
  funext j
  have hj0 : (j 0).val < 5000 := (j 0).isLt
  have hj1 : (j 1).val < 128 := (j 1).isLt
  have ht : t.val < 20 := Nat.lt_of_lt_of_eq t.isLt (show cfg0.N = 20 from N_0)
  refine (slab_block (V c main_arg0) (V c main_v2) (V c main_v5) (iblk0 V c 0 t) (iblk0 V c 1 t) (iblk0 V c 2 t) t.val
    (fun r k i hi0 hi1 => ?_) (fun y => ?_) (fun y => ?_) j
    ⟨t.val * 5000 + (j 0).val, by omega⟩ ⟨(j 1).val, hj1⟩ rfl rfl).trans ?_
  · show V c main_arg0 (((cfg0.win 0).blk t).view.emb (ix2 r k)) = V c main_arg0 i
    refine congrArg (V c main_arg0) (funext fun a => Fin.ext ?_)
    match a with
    | ⟨0, _⟩ => show win0_0.index t (0 : Fin 2) * 5000 + 1 * r.val = (i 0).val; rw [e00, hi0]; omega
    | ⟨1, _⟩ => show win0_0.index t (1 : Fin 2) * 512 + 1 * k.val = (i 1).val; rw [e01, hi1]; omega
  · show V c main_v2 (((cfg0.win 1).blk t).view.emb y) = V c main_v2 y
    refine congrArg (V c main_v2) (funext fun a => Fin.ext ?_)
    match a with
    | ⟨0, _⟩ => show win0_1.index t (0 : Fin 2) * 512 + 1 * (y 0).val = (y 0).val; rw [e10]; omega
    | ⟨1, _⟩ => show win0_1.index t (1 : Fin 2) * 64 + 1 * (y 1).val = (y 1).val; rw [e11]; omega
  · show V c main_v5 (((cfg0.win 2).blk t).view.emb y) = V c main_v5 y
    refine congrArg (V c main_v5) (funext fun a => Fin.ext ?_)
    match a with
    | ⟨0, _⟩ => show win0_2.index t (0 : Fin 2) * 512 + 1 * (y 0).val = (y 0).val; rw [e20]; omega
    | ⟨1, _⟩ => show win0_2.index t (1 : Fin 2) * 64 + 1 * (y 1).val = (y 1).val; rw [e21]; omega
  · show projAt _ _ _ _ _ = projAt (V c main_arg0) (V c main_v2) (V c main_v5) ((((cfg0.win 3).blk t).view.emb j) 0) ((((cfg0.win 3).blk t).view.emb j) 1)
    refine congrArg₂ (projAt (V c main_arg0) (V c main_v2) (V c main_v5)) (Fin.ext ?_) (Fin.ext ?_)
    · show t.val * 5000 + (j 0).val = win0_3.index t (0 : Fin 2) * 5000 + 1 * (j 0).val; rw [e30]; omega
    · show (j 1).val = win0_3.index t (1 : Fin 2) * 128 + 1 * (j 1).val; rw [e31]; omega

/-- An index of the slab is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v6).slice (win0_3.rect t)).set ↔ _
  rw [View.set_slice_whole, Rect.mem_set_unit]
  exact Iff.rfl

/-- THE SLAB: after the projection region its output array is the slab of the arrays the region found. -/
theorem slab_final (c : Dev nD) :
    (dat0 V c).arrAt 3 cfg0.N = projSlab (V c main_arg0) (V c main_v2) (V c main_v5) :=
  (dat0 V c).arrAt_eq_of_cover 3 (projSlab (V c main_arg0) (V c main_v2) (V c main_v5)) (fun t _ => flushed0 V c t) fun i => by
    have hi0 : (i 0).val < 100000 := (i 0).isLt
    have hi1 : (i 1).val < 128 := (i 1).isLt
    have hN : cfg0.N = 20 := N_0
    refine ⟨⟨(i 0).val / 5000, by rw [hN]; omega⟩, flush0_3 _, ?_⟩
    rw [mem_blk0]
    obtain ⟨e00, e01, e10, e11, e20, e21, e30, e31⟩ := idx_facts0 ⟨(i 0).val / 5000, by rw [hN]; omega⟩
    intro a
    match a with
    | ⟨0, _⟩ => show win0_3.index _ (0 : Fin 2) * 5000 ≤ (i 0).val ∧ (i 0).val < win0_3.index _ (0 : Fin 2) * 5000 + 5000; rw [e30]; show (i 0).val / 5000 * 5000 ≤ (i 0).val ∧ (i 0).val < (i 0).val / 5000 * 5000 + 5000; omega
    | ⟨1, _⟩ => show win0_3.index _ (1 : Fin 2) * 128 ≤ (i 1).val ∧ (i 1).val < win0_3.index _ (1 : Fin 2) * 128 + 128; rw [e31]; omega

/-- What point t of the layer-2 region writes back is block t of the scores of the arrays the region finds. -/
theorem flushed1 (c : Dev nD) (t : Fin cfg1.N) :
    (dat1 V c).flushed 5 t = ((cfg1.win 5).blk t).view.read (Elt Ideal)
      (scores (V c main_v31) (V c main_v50) (V c main_v53) (V c main_v56) (V c main_v58)) := by
  show (cfg1.win 5).cut (grid1.coords t) ((dat1 V c).after 5 t) = _
  rw [after1_5]
  unfold out1_5
  rw [View.canon_unit_zero hz]
  simp only [View.ld_unit_zero (S := S8192x64) hz, View.ld_unit_zero (S := S64x64) hz, View.ld_unit_zero (S := S64x16) hz]
  obtain ⟨e00, e01, e10, e11, e20, e21, e30, e31, e40, e41, e50, e51⟩ := idx_facts1 t
  funext j
  have hj0 : (j 0).val < 8192 := (j 0).isLt
  have hj1 : (j 1).val < 16 := (j 1).isLt
  have ht : t.val < 2 := Nat.lt_of_lt_of_eq t.isLt (show cfg1.N = 2 from N_1)
  refine (score_block (V c main_v31) (V c main_v50) (V c main_v53) (V c main_v56) (V c main_v58)
    (iblk1 V c 0 t) (iblk1 V c 1 t) (iblk1 V c 2 t) (iblk1 V c 3 t) (iblk1 V c 4 t) t.val
    (fun r k i hi0 hi1 => ?_) (fun r k i hi0 hi1 => ?_) (fun y => ?_) (fun y => ?_) (fun y => ?_) j
    ⟨t.val * 8192 + (j 0).val, by omega⟩ ⟨(j 1).val, hj1⟩ rfl rfl).trans ?_
  · show V c main_v31 (((cfg1.win 0).blk t).view.emb (ix2 r k)) = V c main_v31 i
    refine congrArg (V c main_v31) (funext fun a => Fin.ext ?_)
    match a with
    | ⟨0, _⟩ => show win1_0.index t (0 : Fin 2) * 8192 + 1 * r.val = (i 0).val; rw [e00, hi0]; omega
    | ⟨1, _⟩ => show win1_0.index t (1 : Fin 2) * 64 + 1 * k.val = (i 1).val; rw [e01, hi1]; omega
  · show V c main_v50 (((cfg1.win 1).blk t).view.emb (ix2 r k)) = V c main_v50 i
    refine congrArg (V c main_v50) (funext fun a => Fin.ext ?_)
    match a with
    | ⟨0, _⟩ => show win1_1.index t (0 : Fin 2) * 8192 + 1 * r.val = (i 0).val; rw [e10, hi0]; omega
    | ⟨1, _⟩ => show win1_1.index t (1 : Fin 2) * 64 + 1 * k.val = (i 1).val; rw [e11, hi1]; omega
  · show V c main_v53 (((cfg1.win 2).blk t).view.emb y) = V c main_v53 y
    refine congrArg (V c main_v53) (funext fun a => Fin.ext ?_)
    match a with
    | ⟨0, _⟩ => show win1_2.index t (0 : Fin 2) * 64 + 1 * (y 0).val = (y 0).val; rw [e20]; omega
    | ⟨1, _⟩ => show win1_2.index t (1 : Fin 2) * 64 + 1 * (y 1).val = (y 1).val; rw [e21]; omega
  · show V c main_v56 (((cfg1.win 3).blk t).view.emb y) = V c main_v56 y
    refine congrArg (V c main_v56) (funext fun a => Fin.ext ?_)
    match a with
    | ⟨0, _⟩ => show win1_3.index t (0 : Fin 2) * 64 + 1 * (y 0).val = (y 0).val; rw [e30]; omega
    | ⟨1, _⟩ => show win1_3.index t (1 : Fin 2) * 64 + 1 * (y 1).val = (y 1).val; rw [e31]; omega
  · show V c main_v58 (((cfg1.win 4).blk t).view.emb y) = V c main_v58 y
    refine congrArg (V c main_v58) (funext fun a => Fin.ext ?_)
    match a with
    | ⟨0, _⟩ => show win1_4.index t (0 : Fin 2) * 64 + 1 * (y 0).val = (y 0).val; rw [e40]; omega
    | ⟨1, _⟩ => show win1_4.index t (1 : Fin 2) * 16 + 1 * (y 1).val = (y 1).val; rw [e41]; omega
  · show scoreAt _ _ _ _ _ _ _ = scoreAt (V c main_v31) (V c main_v50) (V c main_v53) (V c main_v56) (V c main_v58)
      ((((cfg1.win 5).blk t).view.emb j) 0) ((((cfg1.win 5).blk t).view.emb j) 1)
    refine congrArg₂ (scoreAt (V c main_v31) (V c main_v50) (V c main_v53) (V c main_v56) (V c main_v58)) (Fin.ext ?_) (Fin.ext ?_)
    · show t.val * 8192 + (j 0).val = win1_5.index t (0 : Fin 2) * 8192 + 1 * (j 0).val; rw [e50]; omega
    · show (j 1).val = win1_5.index t (1 : Fin 2) * 16 + 1 * (j 1).val; rw [e51]; omega

/-- An index of the scores is in point t's block iff each coordinate is in the block's range on its axis. -/
theorem mem_blk1 (t : Fin cfg1.N) (i : S16384x16.Idx) :
    i ∈ ((cfg1.win 5).blk t).view.set ↔ ∀ a : Fin 2, win1_5.index t a * S8192x16.size a ≤ (i a).val ∧ (i a).val < win1_5.index t a * S8192x16.size a + S8192x16.size a := by
  show i ∈ ((View.whole main_v59).slice (win1_5.rect t)).set ↔ _
  rw [View.set_slice_whole, Rect.mem_set_unit]
  exact Iff.rfl

/-- THE SCORES: after the layer-2 region its output array is the scores of the arrays the region found. -/
theorem scores_final (c : Dev nD) :
    (dat1 V c).arrAt 5 cfg1.N = scores (V c main_v31) (V c main_v50) (V c main_v53) (V c main_v56) (V c main_v58) :=
  (dat1 V c).arrAt_eq_of_cover 5 (scores (V c main_v31) (V c main_v50) (V c main_v53) (V c main_v56) (V c main_v58)) (fun t _ => flushed1 V c t) fun i => by
    have hi0 : (i 0).val < 16384 := (i 0).isLt
    have hi1 : (i 1).val < 16 := (i 1).isLt
    have hN : cfg1.N = 2 := N_1
    refine ⟨⟨(i 0).val / 8192, by rw [hN]; omega⟩, flush1_5 _, ?_⟩
    rw [mem_blk1]
    obtain ⟨e00, e01, e10, e11, e20, e21, e30, e31, e40, e41, e50, e51⟩ := idx_facts1 ⟨(i 0).val / 8192, by rw [hN]; omega⟩
    intro a
    match a with
    | ⟨0, _⟩ => show win1_5.index _ (0 : Fin 2) * 8192 ≤ (i 0).val ∧ (i 0).val < win1_5.index _ (0 : Fin 2) * 8192 + 8192; rw [e50]; show (i 0).val / 8192 * 8192 ≤ (i 0).val ∧ (i 0).val < (i 0).val / 8192 * 8192 + 8192; omega
    | ⟨1, _⟩ => show win1_5.index _ (1 : Fin 2) * 16 ≤ (i 1).val ∧ (i 1).val < win1_5.index _ (1 : Fin 2) * 16 + 16; rw [e51]; omega

end Cert.KernelIdeal.Regions

end
-- ==== Proof.KernelValue.lean ====
/-
  The idealized kernel's result as one function of its six arguments, and its run re-posted at that function.

  Read backwards through @main: the result buffer is the layer-2 region's output array, which is the scores of the
  region's five operand arrays; those are the query rows and the averaged neighbour rows of the hidden features
  computed from the projection slab, and the transposed layer-2 and classifier weights; the slab is the projection
  region's output array, the slab of the features and the two transposed halves of the layer-1 weight.
-/
import proofs.«168417_j75204877353219_2_alg».proof.Proof.KernelRun
import proofs.«168417_j75204877353219_2_alg».proof.Proof.KernelHost
import proofs.«168417_j75204877353219_2_alg».proof.Proof.KernelArrays
import proofs.«168417_j75204877353219_2_alg».proof.Proof.KernelRegions

set_option maxRecDepth 16384

noncomputable section

namespace Cert.KernelIdeal.Result

open Cert.KernelIdeal Cert.KernelIdeal.Gen Cert.KernelIdeal.Hand Cert.KernelIdeal.Arrays
open Idealize.ShloMosaic Idealize.ShloMosaic.TcCoe Idealize.SL.Sem

/-- The scores the kernel returns, from its arguments: features, W1, W2, Wc, query nodes, neighbour table. -/
def kernelOut (a0 : FVec Ideal S100000x512 .f32) (a1 : FVec Ideal S64x1024 .f32) (a2 : FVec Ideal S64x128 .f32)
    (a3 : FVec Ideal S16x64 .f32) (a4 : IVec S16384 32) (a5 : IVec S100000x5 32) : FVec Ideal S16384x16 .f32 :=
  scores (self2K (F := Ideal) (projSlab a0 (w1aT a1) (w1bT a1)) a4 a5) (neigh2K (F := Ideal) (projSlab a0 (w1aT a1) (w1bT a1)) a4 a5)
    (w2aT a2) (w2bT a2) (wcT a3)

variable (m : (ℓ : Loc nD τ sig) → Buf (Elt Ideal) ℓ) (ρ : Dev nD → PrngReg)

/-- The result buffer's last contents are the scores of the launch arguments. -/
theorem W4_value (c : Dev nD) :
    W4 m ρ c (Proc.devRef .tc main_v59) = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [Cert.KernelIdeal.RunNamed.W4_result, Cert.KernelIdeal.Regions.scores_final (V3 m ρ) c,
    V3_self2 m ρ c, V3_neigh2 m ρ c, V3_w2a m ρ c, V3_w2b m ρ c, V3_wc m ρ c, W2_slab m ρ c,
    Cert.KernelIdeal.Regions.slab_final (V1 m ρ) c, V1_features m ρ c, V1_w1a m ρ c, V1_w1b m ρ c]
  rfl

/-- The kernel's run: it terminates without a fault, the result at the scores of the launch arguments, the arguments
    unchanged. -/
theorem run : θ_run defs (onTc (τ := τ) (main (F := Ideal))) ⟨m, fun _ => 0, ρ⟩ (fun r => ∀ c : Dev nD,
      r.2.mem ((c.tc : Thread nD τ).loc main_v59) = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W4_value m ρ c), (h c).2⟩)
    (Cert.KernelIdeal.RunNamed.run_named m ρ)

end Cert.KernelIdeal.Result

end
-- ==== Proof.LibGatherRows.lean ====
/-
  `stablehlo.gather` taking whole ROWS of a rank-2 operand, read at one result element.

  What `x[idx]` of an array `x : [N, W]` at an integer array `idx` lowers to: a gather with the one offset axis
  last in the result, collapsed_slice_dims `[0]`, start_index_map `[0]`, slice_sizes `[1, W]`, and the index vector on
  the start indices' last axis (of extent 1). Result element `(…, k)` is `x` at row "the start index, read as a signed
  integer and clamped into `[0, N − 1]`" and column `k`. Two layouts of the start indices are covered: `[R, C, 1]`
  (result `[R, C, W]`) and `[R, 1]` (result `[R, W]`). These are the rank-2 cousins of the library's
  `ValueIdx.gather_take_apply` (a rank-1 operand), and their proofs take the same steps.
-/
import Idealize.ShloMosaic.Lib.ValueIdx

noncomputable section

namespace Cert.Lib.GatherRows

open Idealize.ShloMosaic Idealize.ShloMosaic.ValueIdx

/-- A start index read as a signed integer and clamped into `[0, N − 1]`. -/
def clampRow (N : Nat) (hN : 0 < N) {w : Nat} (v : BitVec w) : Fin N := ⟨min v.toInt.toNat (N - 1), by omega⟩

/-! ## Start indices `[R, C, 1]`, result `[R, C, W]` -/

/-- The dimension numbers of `x[idx]` for an operand `x : [N, W]`, start indices given as `[R, C, 1]` and result
    `[R, C, W]`: the result's last axis is the one offset axis (it reads the operand's axis 1, whole: slice size `W`),
    the operand's axis 0 is collapsed (slice size 1) and is the one axis the start index names; the index vector lies
    on the start indices' axis 2. Their conditions `wf` are decided on a program's literal shapes. -/
abbrev rowsDims3 (N W R C : Nat)
    (wf : GatherDims.WF ⟨2, ![N, W]⟩ ⟨3, ![R, C, 1]⟩ ⟨3, ![R, C, W]⟩ [2] [0] [] [0] [] 2 ![1, W]) :
    GatherDims ⟨2, ![N, W]⟩ ⟨3, ![R, C, 1]⟩ ⟨3, ![R, C, W]⟩ where
  offsetDims := [2]
  collapsedSliceDims := [0]
  operandBatchingDims := []
  startIndicesBatchingDims := []
  startIndexMap := [0]
  indexVectorDim := 2
  sliceSizes := ![1, W]
  wf := wf

/-- THE GATHER READ AT `(r, c, k)`: the operand at row "the start index `idx[r, c, 0]`, read signed and clamped into
    `[0, N − 1]`" and column `k`. -/
theorem gather_rows3_apply {α : Type} {N W R C w : Nat} (hN : 0 < N)
    (wf : GatherDims.WF ⟨2, ![N, W]⟩ ⟨3, ![R, C, 1]⟩ ⟨3, ![R, C, W]⟩ [2] [0] [] [0] [] 2 ![1, W])
    (x : (⟨2, ![N, W]⟩ : Shape).Idx → α) (idx : IVec ⟨3, ![R, C, 1]⟩ w) (r : Fin R) (c : Fin C) (k : Fin W) :
    Host.gather (rowsDims3 N W R C wf) x idx (ix3 r c k) = x (ix2 (clampRow N hN (idx (ix3 r c (0 : Fin 1)))) k) := by
  unfold Host.gather
  congr 1
  funext a
  match a with
  | ⟨0, _⟩ =>
    -- axis 0: named by the start index map and collapsed
    refine Fin.ext ?_
    show (rowsDims3 N W R C wf).start (ix3 r c k) idx 0 + (rowsDims3 N W R C wf).batchCoord (ix3 r c k) 0
      + (rowsDims3 N W R C wf).offCoord (ix3 r c k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N W R C wf).startIndexMap from List.mem_singleton.mpr rfl)]
    have hsi : (rowsDims3 N W R C wf).siIdx (ix3 r c k) ⟨List.idxOf (0 : Fin 2) (rowsDims3 N W R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    -- axis 1: not named by the start index map, and the one kept axis
    refine Fin.ext ?_
    show (rowsDims3 N W R C wf).start (ix3 r c k) idx 1 + (rowsDims3 N W R C wf).batchCoord (ix3 r c k) 1
      + (rowsDims3 N W R C wf).offCoord (ix3 r c k) 1 = _
    have hmap : (1 : Fin 2) ∉ (rowsDims3 N W R C wf).startIndexMap :=
      fun h => absurd (List.mem_singleton.mp h) (show (1 : Fin 2) ≠ 0 by decide)
    have hkept : (1 : Fin 2) ∈ (rowsDims3 N W R C wf).sKept :=
      (GatherDims.mem_sKept _ _).mpr ⟨fun h => absurd (List.mem_singleton.mp h) (show (1 : Fin 2) ≠ 0 by decide), List.not_mem_nil⟩
    rw [GatherDims.batchCoord_eq_zero _ _ _ List.not_mem_nil]
    unfold GatherDims.start
    rw [dif_neg hmap]
    unfold GatherDims.offCoord
    rw [dif_pos hkept]
    simp only [Nat.zero_add, Nat.add_zero]
    rfl

/-! ## Start indices `[R, 1]`, result `[R, W]` -/

/-- The same dimension numbers for start indices given as `[R, 1]` and result `[R, W]`: the result's axis 1 is the one
    offset axis, the operand's axis 0 is collapsed and named by the start index, and the index vector lies on the start
    indices' axis 1. Their conditions `wf` are decided on a program's literal shapes. -/
abbrev rowsDims2 (N W R : Nat)
    (wf : GatherDims.WF ⟨2, ![N, W]⟩ ⟨2, ![R, 1]⟩ ⟨2, ![R, W]⟩ [1] [0] [] [0] [] 1 ![1, W]) :
    GatherDims ⟨2, ![N, W]⟩ ⟨2, ![R, 1]⟩ ⟨2, ![R, W]⟩ where
  offsetDims := [1]
  collapsedSliceDims := [0]
  operandBatchingDims := []
  startIndicesBatchingDims := []
  startIndexMap := [0]
  indexVectorDim := 1
  sliceSizes := ![1, W]
  wf := wf

/-- THE GATHER READ AT `(r, k)`: the operand at row "the start index `idx[r, 0]`, read signed and clamped into
    `[0, N − 1]`" and column `k`. -/
theorem gather_rows2_apply {α : Type} {N W R w : Nat} (hN : 0 < N)
    (wf : GatherDims.WF ⟨2, ![N, W]⟩ ⟨2, ![R, 1]⟩ ⟨2, ![R, W]⟩ [1] [0] [] [0] [] 1 ![1, W])
    (x : (⟨2, ![N, W]⟩ : Shape).Idx → α) (idx : IVec ⟨2, ![R, 1]⟩ w) (r : Fin R) (k : Fin W) :
    Host.gather (rowsDims2 N W R wf) x idx (ix2 r k) = x (ix2 (clampRow N hN (idx (ix2 r (0 : Fin 1)))) k) := by
  unfold Host.gather
  congr 1
  funext a
  match a with
  | ⟨0, _⟩ =>
    -- axis 0: named by the start index map and collapsed
    refine Fin.ext ?_
    show (rowsDims2 N W R wf).start (ix2 r k) idx 0 + (rowsDims2 N W R wf).batchCoord (ix2 r k) 0
      + (rowsDims2 N W R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims2 N W R wf).startIndexMap from List.mem_singleton.mpr rfl)]
    have hsi : (rowsDims2 N W R wf).siIdx (ix2 r k) ⟨List.idxOf (0 : Fin 2) (rowsDims2 N W R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1: not named by the start index map, and the one kept axis
    refine Fin.ext ?_
    show (rowsDims2 N W R wf).start (ix2 r k) idx 1 + (rowsDims2 N W R wf).batchCoord (ix2 r k) 1
      + (rowsDims2 N W R wf).offCoord (ix2 r k) 1 = _
    have hmap : (1 : Fin 2) ∉ (rowsDims2 N W R wf).startIndexMap :=
      fun h => absurd (List.mem_singleton.mp h) (show (1 : Fin 2) ≠ 0 by decide)
    have hkept : (1 : Fin 2) ∈ (rowsDims2 N W R wf).sKept :=
      (GatherDims.mem_sKept _ _).mpr ⟨fun h => absurd (List.mem_singleton.mp h) (show (1 : Fin 2) ≠ 0 by decide), List.not_mem_nil⟩
    rw [GatherDims.batchCoord_eq_zero _ _ _ List.not_mem_nil]
    unfold GatherDims.start
    rw [dif_neg hmap]
    unfold GatherDims.offCoord
    rw [dif_pos hkept]
    simp only [Nat.zero_add, Nat.add_zero]
    rfl

/-! ## The two lemmas at literal shapes -/

/-- `gather_rows3_apply` at literal extents: a table `[100000, 64]` of extended reals read at 32-bit start indices
    `[16384, 5, 1]`. -/
example (wf : GatherDims.WF ⟨2, ![100000, 64]⟩ ⟨3, ![16384, 5, 1]⟩ ⟨3, ![16384, 5, 64]⟩ [2] [0] [] [0] [] 2 ![1, 64])
    (x : (⟨2, ![100000, 64]⟩ : Shape).Idx → EReal) (idx : IVec ⟨3, ![16384, 5, 1]⟩ 32)
    (r : Fin 16384) (c : Fin 5) (k : Fin 64) :
    Host.gather (rowsDims3 100000 64 16384 5 wf) x idx (ix3 r c k)
      = x (ix2 (clampRow 100000 (by decide) (idx (ix3 r c (0 : Fin 1)))) k) :=
  gather_rows3_apply _ wf x idx r c k

/-- `gather_rows2_apply` at literal extents: the same table read at 32-bit start indices `[16384, 1]`. -/
example (wf : GatherDims.WF ⟨2, ![100000, 64]⟩ ⟨2, ![16384, 1]⟩ ⟨2, ![16384, 64]⟩ [1] [0] [] [0] [] 1 ![1, 64])
    (x : (⟨2, ![100000, 64]⟩ : Shape).Idx → EReal) (idx : IVec ⟨2, ![16384, 1]⟩ 32)
    (r : Fin 16384) (k : Fin 64) :
    Host.gather (rowsDims2 100000 64 16384 wf) x idx (ix2 r k)
      = x (ix2 (clampRow 100000 (by decide) (idx (ix2 r (0 : Fin 1)))) k) :=
  gather_rows2_apply _ wf x idx r k

end Cert.Lib.GatherRows

end
-- ==== Proof.KernelStages.lean ====
/-
  The idealized kernel's host stages read at one index, on extended reals.

  The transposed weight halves read back as entries of the weights themselves. The hidden feature (n, h) computed from
  the projection slab is the "projections first" arrangement of layer 1: the slab's self half at (n, h) is feature row n
  against the first half of row h of W1, and its neighbour half, gathered at the five clamped neighbour rows of n,
  summed from zero and divided by 5, is the mean over the neighbours of their rows against the second half.
-/
import proofs.«168417_j75204877353219_2_alg».proof.Proof.KernelHost
import proofs.«168417_j75204877353219_2_alg».proof.Proof.KernelArrays
import proofs.«168417_j75204877353219_2_alg».proof.Proof.LibGatherRows
import proofs.«168417_j75204877353219_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Stages

open Cert.KernelIdeal Cert.KernelIdeal.Gen Cert.KernelIdeal.Hand Cert.KernelIdeal.Arrays Cert.Lib.GatherRows
open Idealize.ShloMosaic Idealize.ShloMosaic.ValueIdx

/-- The clamped neighbour row of node n, sample i, off an array of gather start indices. -/
def nbr (idx : IVec S100000x5x1 32) (n : Fin 100000) (i : Fin 5) : Fin 100000 :=
  clampRow 100000 (by decide) (idx (ix3 n i (0 : Fin 1)))

/-! ## The transposed weights -/

theorem w1aT_apply (a1 : FVec Ideal S64x1024 .f32) (k : Fin 512) (h : Fin 64) :
    w1aT (F := Ideal) a1 (ix2 k h) = a1 (ix2 h (⟨k.val, by omega⟩ : Fin 1024)) := by
  unfold w1aT
  show transpose S512x64 [1, 0] (extractStridedSlice S64x512 ![0, 0] a1 slices_S64x1024_S64x512_0_0) transposes_S64x512_S512x64_1_0 (ix2 k h) = _
  refine (transpose_apply [1, 0] _ transposes_S64x512_S512x64_1_0 (ix2 k h) (ix2 h k) (fun b => match b with
    | ⟨0, _⟩ => rfl
    | ⟨1, _⟩ => rfl)).trans ?_
  exact slice2_axis1_apply 0 a1 slices_S64x1024_S64x512_0_0 h k ⟨k.val, by omega⟩ (by simp)

theorem w1bT_apply (a1 : FVec Ideal S64x1024 .f32) (k : Fin 512) (h : Fin 64) :
    w1bT (F := Ideal) a1 (ix2 k h) = a1 (ix2 h (⟨512 + k.val, by omega⟩ : Fin 1024)) := by
  unfold w1bT
  show transpose S512x64 [1, 0] (extractStridedSlice S64x512 ![0, 512] a1 slices_S64x1024_S64x512_0_512) transposes_S64x512_S512x64_1_0 (ix2 k h) = _
  refine (transpose_apply [1, 0] _ transposes_S64x512_S512x64_1_0 (ix2 k h) (ix2 h k) (fun b => match b with
    | ⟨0, _⟩ => rfl
    | ⟨1, _⟩ => rfl)).trans ?_
  exact slice2_axis1_apply 512 a1 slices_S64x1024_S64x512_0_512 h k ⟨512 + k.val, by omega⟩ rfl

theorem w2aT_apply (a2 : FVec Ideal S64x128 .f32) (k h : Fin 64) :
    w2aT (F := Ideal) a2 (ix2 k h) = a2 (ix2 h (⟨k.val, by omega⟩ : Fin 128)) := by
  unfold w2aT
  show transpose S64x64 [1, 0] (extractStridedSlice S64x64 ![0, 0] a2 slices_S64x128_S64x64_0_0) transposes_S64x64_S64x64_1_0 (ix2 k h) = _
  refine (transpose_apply [1, 0] _ transposes_S64x64_S64x64_1_0 (ix2 k h) (ix2 h k) (fun b => match b with
    | ⟨0, _⟩ => rfl
    | ⟨1, _⟩ => rfl)).trans ?_
  exact slice2_axis1_apply 0 a2 slices_S64x128_S64x64_0_0 h k ⟨k.val, by omega⟩ (by simp)

theorem w2bT_apply (a2 : FVec Ideal S64x128 .f32) (k h : Fin 64) :
    w2bT (F := Ideal) a2 (ix2 k h) = a2 (ix2 h (⟨64 + k.val, by omega⟩ : Fin 128)) := by
  unfold w2bT
  show transpose S64x64 [1, 0] (extractStridedSlice S64x64 ![0, 64] a2 slices_S64x128_S64x64_0_64) transposes_S64x64_S64x64_1_0 (ix2 k h) = _
  refine (transpose_apply [1, 0] _ transposes_S64x64_S64x64_1_0 (ix2 k h) (ix2 h k) (fun b => match b with
    | ⟨0, _⟩ => rfl
    | ⟨1, _⟩ => rfl)).trans ?_
  exact slice2_axis1_apply 64 a2 slices_S64x128_S64x64_0_64 h k ⟨64 + k.val, by omega⟩ rfl

theorem wcT_apply (a3 : FVec Ideal S16x64 .f32) (h : Fin 64) (c : Fin 16) :
    wcT (F := Ideal) a3 (ix2 h c) = a3 (ix2 c h) := by
  unfold wcT
  exact transpose_apply [1, 0] _ transposes_S16x64_S64x16_1_0 (ix2 h c) (ix2 c h) (fun b => match b with
    | ⟨0, _⟩ => rfl
    | ⟨1, _⟩ => rfl)

/-! ## The slab's two halves -/

/-- The self half of the slab at (n, h): feature row n against the first half of row h of W1. -/
theorem slab_self (a0 : FVec Ideal S100000x512 .f32) (a1 : FVec Ideal S64x1024 .f32) (n : Fin 100000) (h : Fin 64) :
    extractStridedSlice S100000x64 ![0, 0] (projSlab a0 (w1aT a1) (w1bT a1)) slices_S100000x128_S100000x64_0_0 (ix2 n h)
      = ∑ k : Fin 512, a0 (ix2 n k) * a1 (ix2 h (⟨k.val, by omega⟩ : Fin 1024)) := by
  refine (slice2_axis1_apply 0 _ slices_S100000x128_S100000x64_0_0 n h ⟨h.val, by omega⟩ (by simp)).trans ?_
  show projAt a0 (w1aT a1) (w1bT a1) n ⟨h.val, by omega⟩ = _
  unfold projAt
  rw [dif_pos (show (⟨h.val, by omega⟩ : Fin 128).val < 64 from h.isLt)]
  exact Finset.sum_congr rfl fun k _ => by rw [w1aT_apply]

/-- The neighbour half of the slab at (n, h): feature row n against the second half of row h of W1. -/
theorem slab_nbr (a0 : FVec Ideal S100000x512 .f32) (a1 : FVec Ideal S64x1024 .f32) (n : Fin 100000) (h : Fin 64) :
    extractStridedSlice S100000x64 ![0, 64] (projSlab a0 (w1aT a1) (w1bT a1)) slices_S100000x128_S100000x64_0_64 (ix2 n h)
      = ∑ k : Fin 512, a0 (ix2 n k) * a1 (ix2 h (⟨512 + k.val, by omega⟩ : Fin 1024)) := by
  refine (slice2_axis1_apply 64 _ slices_S100000x128_S100000x64_0_64 n h ⟨64 + h.val, by omega⟩ rfl).trans ?_
  show projAt a0 (w1aT a1) (w1bT a1) n ⟨64 + h.val, by omega⟩ = _
  unfold projAt
  rw [dif_neg (show ¬ ((⟨64 + h.val, by omega⟩ : Fin 128).val < 64) from by simp)]
  refine Finset.sum_congr rfl fun k _ => ?_
  refine congrArg (fun z : EReal => a0 (ix2 n k) * z) ?_
  refine Eq.trans ?_ (w1bT_apply a1 k h)
  exact congrArg (fun z : Fin 64 => w1bT (F := Ideal) a1 (ix2 k z)) (Fin.ext (by simp))

/-! ## The hidden features -/

/-- The printed gather of neighbour rows is the row gather of the general lemma. -/
theorem gather_nbr_eq : gather_S100000x64_S100000x5x1_S100000x5x64_2_0_n_n_0_2_164
    = rowsDims3 100000 64 100000 5 gather_S100000x64_S100000x5x1_S100000x5x64_2_0_n_n_0_2_164_wf := rfl

/-- The hidden feature (n, h) from the slab is layer 1 with the projections taken first. -/
theorem h1K_apply (a0 : FVec Ideal S100000x512 .f32) (a1 : FVec Ideal S64x1024 .f32) (a5 : IVec S100000x5 32)
    (n : Fin 100000) (h : Fin 64) :
    h1K (F := Ideal) (projSlab a0 (w1aT a1) (w1bT a1)) a5 (ix2 n h) = Cert.Spec.h1Split a0 a1 (nbr (nbrIdx a5)) n h := by
  unfold h1K Cert.Spec.h1Split
  show max (extractStridedSlice S100000x64 ![0, 0] (projSlab a0 (w1aT a1) (w1bT a1)) slices_S100000x128_S100000x64_0_0 (ix2 n h)
      + Ideal.div (Host.reduceAdd (F := Ideal)
          (extf .f32 (Host.gather gather_S100000x64_S100000x5x1_S100000x5x64_2_0_n_n_0_2_164
            (extractStridedSlice S100000x64 ![0, 64] (projSlab a0 (w1aT a1) (w1bT a1)) slices_S100000x128_S100000x64_0_64) (nbrIdx a5)) bitsLt_bf16_f32)
          (constant (F := Ideal) S_ .f32 0x00000000#32) reducesTo_S100000x5x64_S100000x64_d1 h_S_ (ix2 n h))
        (Ideal.ofBits .f32 0x40A00000#32)) Cert.Spec.Z = _
  refine congrArg (fun z : EReal => max z Cert.Spec.Z) ?_
  refine congrArg₂ (fun s t : EReal => s + t) (slab_self a0 a1 n h) ?_
  unfold Cert.Spec.mean5
  refine congrArg (fun z : EReal => Ideal.div z (Ideal.ofBits .f32 0x40A00000#32)) ?_
  simp only [Host.reduceAdd, Ideal.hostReduceAdd_def]
  rw [Ideal.hostReduceAdd_single reducesTo_S100000x5x64_S100000x64_d1 (by decide)]
  refine congrArg₂ (fun s t : EReal => s + t) rfl (Finset.sum_congr rfl fun i _ => ?_)
  refine (show _ = Host.gather gather_S100000x64_S100000x5x1_S100000x5x64_2_0_n_n_0_2_164
      (extractStridedSlice S100000x64 ![0, 64] (projSlab a0 (w1aT a1) (w1bT a1)) slices_S100000x128_S100000x64_0_64) (nbrIdx a5) (ix3 n i h) from
    congrArg (Host.gather gather_S100000x64_S100000x5x1_S100000x5x64_2_0_n_n_0_2_164
      (extractStridedSlice S100000x64 ![0, 64] (projSlab a0 (w1aT a1) (w1bT a1)) slices_S100000x128_S100000x64_0_64) (nbrIdx a5))
      (funext fun a => Fin.ext (by match a with | ⟨0, _⟩ => rfl | ⟨1, _⟩ => rfl | ⟨2, _⟩ => rfl))).trans ?_
  rw [gather_nbr_eq]
  refine (gather_rows3_apply (by decide) _ _ (nbrIdx a5) n i h).trans ?_
  exact slab_nbr a0 a1 (nbr (nbrIdx a5) n i) h

end Cert.KernelIdeal.Stages

end
-- ==== Proof.RefValue.lean ====
/-
  The reference program's stages read at one index, at the ideal instance, as formulas free of the program.

  Layer 1: the hidden features of node `n` are the clamped-at-zero contraction of the concatenated row
  `[x[n, ·], mean of the five gathered neighbour rows]` against a row of the first weight. Each stage of the program is
  read at an index from the stages before it: the gather of neighbour rows takes whole rows at the clamped start
  indices, the sum over the five samples plus the division by five is the mean, the concatenation picks the node's
  own row on the first 512 positions and the mean on the last 512, and the contraction against the transposed weight
  is the sum over the 1024 positions.

  Layer 2 and the classifier: the program's last six operations, as a function of the two gathered blocks, are the
  specification's scores on those blocks.
-/
import proofs.«168417_j75204877353219_2_alg».proof.Proof.Gen.ReferenceIdeal.Read
import proofs.«168417_j75204877353219_2_alg».proof.Proof.Spec
import proofs.«168417_j75204877353219_2_alg».proof.Proof.LibGatherRows

noncomputable section

open scoped BigOperators

namespace Cert.ReferenceIdeal.RefValue

open Idealize.ShloMosaic Idealize.ShloMosaic.ValueIdx Cert.Lib.GatherRows Cert.ReferenceIdeal Cert.ReferenceIdeal.Read

/-- The clamped neighbour row of node `n`, sample `i`: the start index `idx[n, i, 0]` read as a signed integer and
    clamped into `[0, 99999]`. -/
def nbr (idx : IVec S100000x5x1 32) (n : Fin 100000) (i : Fin 5) : Fin 100000 :=
  clampRow 100000 (by decide) (idx (ix3 n i (0 : Fin 1)))

/-! ## Layer 1 -/

/-- The gathered neighbour rows at `(n, i, c)`: the features at the clamped neighbour row, column `c`. -/
theorem v6_apply (x0 : FVec Ideal S100000x512 .f32) (x5 : IVec S100000x5 32) (n : Fin 100000) (i : Fin 5) (c : Fin 512) :
    val_main_v6 (F := Ideal) x0 x5 (ix3 n i c) = x0 (ix2 (nbr (val_main_v5 (F := Ideal) x5) n i) c) := by
  unfold val_main_v6
  have e : gather_S100000x512_S100000x5x1_S100000x5x512_2_0_n_n_0_2_1512
      = rowsDims3 100000 512 100000 5 Facts₀.gather_S100000x512_S100000x5x1_S100000x5x512_2_0_n_n_0_2_1512_wf := rfl
  rw [e]
  exact gather_rows3_apply _ _ x0 (val_main_v5 (F := Ideal) x5) n i c

/-- The sum over the five samples, divided by five, at `(n, c)`: the mean of the five neighbour rows' column `c`. -/
theorem v9_apply (x0 : FVec Ideal S100000x512 .f32) (x5 : IVec S100000x5 32) (n : Fin 100000) (c : Fin 512) :
    val_main_v9 (F := Ideal) x0 x5 (ix2 n c)
      = Cert.Spec.mean5 fun i => x0 (ix2 (nbr (val_main_v5 (F := Ideal) x5) n i) c) := by
  have e7 : ∀ i : Fin 5, idx_main_v7 (ix2 n c) i = ix3 n i c := fun i =>
    funext fun a => Fin.ext (by match a with | ⟨0, _⟩ => rfl | ⟨1, _⟩ => rfl | ⟨2, _⟩ => rfl)
  rw [val_main_v9_apply, val_main_v7_apply, val_main_v8_apply, val_main_cst_1_apply, val_main_cst_apply]
  simp only [e7, v6_apply, Ideal.hostDivf_def, Ideal.ofBits_def]
  rfl

/-- The concatenated row on its first 512 positions: the node's own features. -/
theorem v10_apply_left (x0 : FVec Ideal S100000x512 .f32) (x5 : IVec S100000x5 32) (n : Fin 100000) (k : Fin 1024)
    (hk : k.val < 512) :
    val_main_v10 (F := Ideal) x0 x5 (ix2 n k) = x0 (ix2 n ⟨k.val, hk⟩) := by
  unfold val_main_v10
  exact concatenate_pair_apply_left (1 : Fin S100000x1024.rank) x0 (val_main_v9 (F := Ideal) x0 x5)
    Facts₀.concatenates_S100000x512_S100000x512_S100000x1024_d1 (ix2 n k) rfl (ix2 n ⟨k.val, hk⟩)
    (fun b => match b with | ⟨0, _⟩ => rfl | ⟨1, _⟩ => rfl)

/-- The concatenated row on its last 512 positions: the mean stage, 512 positions back. -/
theorem v10_apply_right (x0 : FVec Ideal S100000x512 .f32) (x5 : IVec S100000x5 32) (n : Fin 100000) (k : Fin 1024)
    (hk : ¬ k.val < 512) :
    val_main_v10 (F := Ideal) x0 x5 (ix2 n k) = val_main_v9 (F := Ideal) x0 x5 (ix2 n ⟨k.val - 512, by omega⟩) := by
  unfold val_main_v10
  exact concatenate_pair_apply_right (1 : Fin S100000x1024.rank) x0 (val_main_v9 (F := Ideal) x0 x5)
    Facts₀.concatenates_S100000x512_S100000x512_S100000x1024_d1 (ix2 n k) rfl rfl (ix2 n ⟨k.val - 512, by omega⟩)
    (fun b hb => match b, hb with | ⟨0, _⟩, _ => rfl | ⟨1, _⟩, hb => absurd rfl hb)
    (by show (k.val - 512) + 512 = k.val; omega)

/-- THE HIDDEN FEATURES AT `(n, h)`: the reference's layer-1 result is the specification's whole-row contraction, with
    the neighbour rows those the start indices name after clamping. -/
theorem h1_apply (x0 : FVec Ideal S100000x512 .f32) (x1 : FVec Ideal S64x1024 .f32) (x5 : IVec S100000x5 32)
    (n : Fin 100000) (h : Fin 64) :
    val_main_v13 (F := Ideal) x0 x1 x5 (ix2 n h)
      = Cert.Spec.h1Whole x0 x1 (nbr (val_main_v5 (F := Ideal) x5)) n h := by
  have el : ∀ k : Fin 1024, lidx_main_v12 (ix2 n h) k = ix2 n k := fun k =>
    funext fun a => Fin.ext (by match a with | ⟨0, _⟩ => rfl | ⟨1, _⟩ => rfl)
  have er : ∀ k : Fin 1024, idx_main_v11 (ridx_main_v12 (ix2 n h) k) = ix2 h k := fun k =>
    funext fun a => Fin.ext (by match a with | ⟨0, _⟩ => rfl | ⟨1, _⟩ => rfl)
  rw [val_main_v13_apply, val_main_v12_apply, val_main_call0_v0_apply, val_main_call0_cst_apply]
  simp only [val_main_v11_apply, el, er, Ideal.maximumf_def, Ideal.ofBits_def]
  unfold Cert.Spec.h1Whole
  congr 1
  refine Finset.sum_congr rfl fun k _ => ?_
  congr 1
  by_cases hk : k.val < 512
  · rw [dif_pos hk, v10_apply_left x0 x5 n k hk]
  · rw [dif_neg hk, v10_apply_right x0 x5 n k hk, v9_apply]

/-! ## Layer 2 and the classifier

The last six operations of the program — the concatenation of the two gathered blocks, the contraction against the
transposed second weight, the clamp at zero, and the contraction against the transposed classifier weight — as a
function of the two blocks, and that function read at an index. -/

/-- The program's last six operations applied to two blocks `S` and `N` in place of the gathered own features and the
    mean of the gathered neighbour features. -/
def tail (S N : FVec Ideal S16384x64 .f32) (x2 : FVec Ideal S64x128 .f32) (x3 : FVec Ideal S16x64 .f32) :
    FVec Ideal S16384x16 .f32 :=
  Host.dotGeneral (F := Ideal) (φ₁ := .f32) (φ₂ := .f32) dot_S16384x64_S64x16_S16384x16_1_0_0_1_n_n none
    (maximumf (F := Ideal)
      (Host.dotGeneral (F := Ideal) (φ₁ := .f32) (φ₂ := .f32) dot_S16384x128_S128x64_S16384x64_1_0_0_1_n_n none
        (concatenate S16384x128 1 [⟨S16384x64, S⟩, ⟨S16384x64, N⟩] Facts₀.concatenates_S16384x64_S16384x64_S16384x128_d1)
        (val_main_v39 (F := Ideal) x2))
      (val_main_call1_v0 (F := Ideal)))
    (val_main_v42 (F := Ideal) x3)

/-- The program's result is that function of its two gathered blocks. -/
theorem val_main_v43_eq_tail (x0 : FVec Ideal S100000x512 .f32) (x1 : FVec Ideal S64x1024 .f32)
    (x2 : FVec Ideal S64x128 .f32) (x3 : FVec Ideal S16x64 .f32) (x4 : IVec S16384 32) (x5 : IVec S100000x5 32) :
    val_main_v43 (F := Ideal) x0 x1 x2 x3 x4 x5
      = tail (val_main_v20 (F := Ideal) x0 x1 x4 x5) (val_main_v37 (F := Ideal) x0 x1 x4 x5) x2 x3 := rfl

/-- The contraction of a `[16384, 128]` array against a `[128, 64]` one at an index: the sum over the 128 positions. -/
theorem dot128_apply (l : FVec Ideal S16384x128 .f32) (r : FVec Ideal S128x64 .f32) (i : S16384x64.Idx) :
    Host.dotGeneral (F := Ideal) (φ₁ := .f32) (φ₂ := .f32) dot_S16384x128_S128x64_S16384x64_1_0_0_1_n_n none l r i
      = ∑ k : Fin 128, l (lidx_main_v40 i k) * r (ridx_main_v40 i k) := by
  simp only [Host.dotGeneral]
  rw [Ideal.dotGeneral_apply, ← Equiv.sum_comp (ValueIdx.contrEquiv1 dot_S16384x128_S128x64_S16384x64_1_0_0_1_n_n 128 rfl rfl).symm]
  refine Finset.sum_congr rfl fun k _ => ?_
  have hk := ValueIdx.contrEquiv1_symm_val dot_S16384x128_S128x64_S16384x64_1_0_0_1_n_n 128 rfl rfl k
  have el : dot_S16384x128_S128x64_S16384x64_1_0_0_1_n_n.lhsIdx i
      ((ValueIdx.contrEquiv1 dot_S16384x128_S128x64_S16384x64_1_0_0_1_n_n 128 rfl rfl).symm k) = lidx_main_v40 i k :=
    funext fun a => Fin.ext (by
      match a with
      | ⟨0, _⟩ => exact lhs_main_v40_0 _ _
      | ⟨1, _⟩ => exact (lhs_main_v40_1 _ _).trans hk)
  have er : dot_S16384x128_S128x64_S16384x64_1_0_0_1_n_n.rhsIdx i
      ((ValueIdx.contrEquiv1 dot_S16384x128_S128x64_S16384x64_1_0_0_1_n_n 128 rfl rfl).symm k) = ridx_main_v40 i k :=
    funext fun a => Fin.ext (by
      match a with
      | ⟨0, _⟩ => exact (rhs_main_v40_0 _ _).trans hk
      | ⟨1, _⟩ => exact rhs_main_v40_1 _ _)
  rw [el, er]

/-- The contraction of a `[16384, 64]` array against a `[64, 16]` one at an index: the sum over the 64 positions. -/
theorem dot64_apply (l : FVec Ideal S16384x64 .f32) (r : FVec Ideal S64x16 .f32) (i : S16384x16.Idx) :
    Host.dotGeneral (F := Ideal) (φ₁ := .f32) (φ₂ := .f32) dot_S16384x64_S64x16_S16384x16_1_0_0_1_n_n none l r i
      = ∑ k : Fin 64, l (lidx_main_v43 i k) * r (ridx_main_v43 i k) := by
  simp only [Host.dotGeneral]
  rw [Ideal.dotGeneral_apply, ← Equiv.sum_comp (ValueIdx.contrEquiv1 dot_S16384x64_S64x16_S16384x16_1_0_0_1_n_n 64 rfl rfl).symm]
  refine Finset.sum_congr rfl fun k _ => ?_
  have hk := ValueIdx.contrEquiv1_symm_val dot_S16384x64_S64x16_S16384x16_1_0_0_1_n_n 64 rfl rfl k
  have el : dot_S16384x64_S64x16_S16384x16_1_0_0_1_n_n.lhsIdx i
      ((ValueIdx.contrEquiv1 dot_S16384x64_S64x16_S16384x16_1_0_0_1_n_n 64 rfl rfl).symm k) = lidx_main_v43 i k :=
    funext fun a => Fin.ext (by
      match a with
      | ⟨0, _⟩ => exact lhs_main_v43_0 _ _
      | ⟨1, _⟩ => exact (lhs_main_v43_1 _ _).trans hk)
  have er : dot_S16384x64_S64x16_S16384x16_1_0_0_1_n_n.rhsIdx i
      ((ValueIdx.contrEquiv1 dot_S16384x64_S64x16_S16384x16_1_0_0_1_n_n 64 rfl rfl).symm k) = ridx_main_v43 i k :=
    funext fun a => Fin.ext (by
      match a with
      | ⟨0, _⟩ => exact (rhs_main_v43_0 _ _).trans hk
      | ⟨1, _⟩ => exact rhs_main_v43_1 _ _)
  rw [el, er]

/-- The concatenation of two `[16384, 64]` blocks on its first 64 positions: the first block. -/
theorem cat_apply_left (S N : FVec Ideal S16384x64 .f32) (b : Fin 16384) (k : Fin 128) (hk : k.val < 64) :
    concatenate S16384x128 1 [⟨S16384x64, S⟩, ⟨S16384x64, N⟩] Facts₀.concatenates_S16384x64_S16384x64_S16384x128_d1 (ix2 b k)
      = S (ix2 b ⟨k.val, hk⟩) :=
  concatenate_pair_apply_left (1 : Fin S16384x128.rank) S N
    Facts₀.concatenates_S16384x64_S16384x64_S16384x128_d1 (ix2 b k) rfl (ix2 b ⟨k.val, hk⟩)
    (fun a => match a with | ⟨0, _⟩ => rfl | ⟨1, _⟩ => rfl)

/-- The concatenation of two `[16384, 64]` blocks on its last 64 positions: the second block, 64 positions back. -/
theorem cat_apply_right (S N : FVec Ideal S16384x64 .f32) (b : Fin 16384) (k : Fin 128) (hk : ¬ k.val < 64) :
    concatenate S16384x128 1 [⟨S16384x64, S⟩, ⟨S16384x64, N⟩] Facts₀.concatenates_S16384x64_S16384x64_S16384x128_d1 (ix2 b k)
      = N (ix2 b ⟨k.val - 64, by omega⟩) :=
  concatenate_pair_apply_right (1 : Fin S16384x128.rank) S N
    Facts₀.concatenates_S16384x64_S16384x64_S16384x128_d1 (ix2 b k) rfl rfl (ix2 b ⟨k.val - 64, by omega⟩)
    (fun a ha => match a, ha with | ⟨0, _⟩, _ => rfl | ⟨1, _⟩, ha => absurd rfl ha)
    (by show (k.val - 64) + 64 = k.val; omega)

/-- THE SCORES AT `(b, c)`: the program's last six operations on two blocks are the specification's whole-row
    contraction, clamp and classifier contraction on them. -/
theorem out_apply (S N : FVec Ideal S16384x64 .f32) (x2 : FVec Ideal S64x128 .f32) (x3 : FVec Ideal S16x64 .f32)
    (b : Fin 16384) (c : Fin 16) :
    tail S N x2 x3 (ix2 b c) = Cert.Spec.outWhole S N x2 x3 b c := by
  unfold tail Cert.Spec.outWhole
  rw [dot64_apply]
  refine Finset.sum_congr rfl fun h _ => ?_
  have el43 : lidx_main_v43 (ix2 b c) h = ix2 b h :=
    funext fun a => Fin.ext (by match a with | ⟨0, _⟩ => rfl | ⟨1, _⟩ => rfl)
  have er43 : idx_main_v42 (ridx_main_v43 (ix2 b c) h) = ix2 c h :=
    funext fun a => Fin.ext (by match a with | ⟨0, _⟩ => rfl | ⟨1, _⟩ => rfl)
  rw [val_main_v42_apply, er43, el43, ValueIdx.maximumf_apply, val_main_call1_v0_apply, val_main_call1_cst_apply,
    dot128_apply]
  simp only [Ideal.ofBits_def]
  congr 2
  refine Finset.sum_congr rfl fun k _ => ?_
  have el40 : lidx_main_v40 (ix2 b h) k = ix2 b k :=
    funext fun a => Fin.ext (by match a with | ⟨0, _⟩ => rfl | ⟨1, _⟩ => rfl)
  have er40 : idx_main_v39 (ridx_main_v40 (ix2 b h) k) = ix2 h k :=
    funext fun a => Fin.ext (by match a with | ⟨0, _⟩ => rfl | ⟨1, _⟩ => rfl)
  rw [val_main_v39_apply, er40, el40]
  congr 1
  by_cases hk : k.val < 64
  · rw [dif_pos hk, cat_apply_left S N b k hk]
  · rw [dif_neg hk, cat_apply_right S N b k hk]

end Cert.ReferenceIdeal.RefValue

end
-- ==== Proof.Bridge.lean ====
/-
  The kernel's function of the arguments is the reference's last stage, when the features and the layer-1 weight are
  real numbers.

  Layer 1: the hidden features computed from the projection slab are the reference's, entry by entry — the
  "projections first" arrangement equals the "concatenate, then one contraction" arrangement (the law that needs real
  numbers), and both programs read neighbour rows through the same clamped start indices. Hence the query rows and the
  averaged neighbour rows fed to layer 2 are the same arrays in both programs. Layer 2 and the classifier: the scores
  computed from the two transposed weight halves equal the reference's one contraction of the concatenated row, on all
  extended reals.
-/
import proofs.«168417_j75204877353219_2_alg».proof.Proof.KernelValue
import proofs.«168417_j75204877353219_2_alg».proof.Proof.KernelStages
import proofs.«168417_j75204877353219_2_alg».proof.Proof.RefValue
import proofs.«168417_j75204877353219_2_alg».proof.Proof.Spec

set_option maxRecDepth 16384

noncomputable section

open scoped BigOperators

namespace Cert.Proof.Bridge

open Idealize.ShloMosaic Idealize.ShloMosaic.ValueIdx
open Cert.KernelIdeal.Hand Cert.KernelIdeal.Arrays Cert.KernelIdeal.Stages Cert.KernelIdeal.Result

section
variable (a0 : FVec Ideal Cert.KernelIdeal.S100000x512 .f32) (a1 : FVec Ideal Cert.KernelIdeal.S64x1024 .f32)
  (a2 : FVec Ideal Cert.KernelIdeal.S64x128 .f32) (a3 : FVec Ideal Cert.KernelIdeal.S16x64 .f32)
  (a4 : IVec Cert.KernelIdeal.S16384 32) (a5 : IVec Cert.KernelIdeal.S100000x5 32)

/-- Both programs turn the neighbour table into the same gather start indices. -/
theorem nbrIdx_eq : nbrIdx a5 = Cert.ReferenceIdeal.Read.val_main_v5 (F := Ideal) a5 := rfl

/-- The hidden features are the same array in both programs. -/
theorem h1_eq (hA : ∀ i, ∃ r : ℝ, a0 i = (r : EReal)) (hW : ∀ i, ∃ r : ℝ, a1 i = (r : EReal)) :
    h1K (F := Ideal) (projSlab a0 (w1aT a1) (w1bT a1)) a5 = Cert.ReferenceIdeal.Read.val_main_v13 (F := Ideal) a0 a1 a5 := by
  funext j
  obtain ⟨n, h, rfl⟩ : ∃ (n : Fin 100000) (h : Fin 64), j = ix2 n h := ⟨j 0, j 1, eq_ix2 j⟩
  rw [h1K_apply, Cert.ReferenceIdeal.RefValue.h1_apply, Cert.Spec.h1Split_eq_h1Whole a0 a1 _ hA hW n h]
  rfl

/-- The query rows of the hidden features are the same array in both programs. -/
theorem self2_eq (hA : ∀ i, ∃ r : ℝ, a0 i = (r : EReal)) (hW : ∀ i, ∃ r : ℝ, a1 i = (r : EReal)) :
    self2K (F := Ideal) (projSlab a0 (w1aT a1) (w1bT a1)) a4 a5 = Cert.ReferenceIdeal.Read.val_main_v20 (F := Ideal) a0 a1 a4 a5 := by
  unfold self2K
  rw [h1_eq a0 a1 a5 hA hW]
  rfl

/-- The averaged neighbour rows of the hidden features are the same array in both programs. -/
theorem neigh2_eq (hA : ∀ i, ∃ r : ℝ, a0 i = (r : EReal)) (hW : ∀ i, ∃ r : ℝ, a1 i = (r : EReal)) :
    neigh2K (F := Ideal) (projSlab a0 (w1aT a1) (w1bT a1)) a4 a5 = Cert.ReferenceIdeal.Read.val_main_v37 (F := Ideal) a0 a1 a4 a5 := by
  unfold neigh2K
  rw [h1_eq a0 a1 a5 hA hW]
  rfl

/-- The scores from the transposed weight halves are layer 2 with each half contracted separately. -/
theorem scoreAt_eq_outSplit (S N : FVec Ideal Cert.KernelIdeal.S16384x64 .bf16) (b : Fin 16384) (c : Fin 16) :
    scoreAt S N (w2aT a2) (w2bT a2) (wcT a3) b c = Cert.Spec.outSplit S N a2 a3 b c := by
  unfold scoreAt Cert.Spec.outSplit
  simp only [w2aT_apply, w2bT_apply, wcT_apply]

/-- THE BRIDGE: the kernel's scores are the reference's last stage. -/
theorem kernelOut_eq_ref (hA : ∀ i, ∃ r : ℝ, a0 i = (r : EReal)) (hW : ∀ i, ∃ r : ℝ, a1 i = (r : EReal)) :
    kernelOut a0 a1 a2 a3 a4 a5 = Cert.ReferenceIdeal.Read.val_main_v43 (F := Ideal) a0 a1 a2 a3 a4 a5 := by
  unfold kernelOut
  rw [self2_eq a0 a1 a4 a5 hA hW, neigh2_eq a0 a1 a4 a5 hA hW, Cert.ReferenceIdeal.RefValue.val_main_v43_eq_tail]
  funext j
  obtain ⟨b, c, rfl⟩ : ∃ (b : Fin 16384) (c : Fin 16), j = ix2 b c := ⟨j 0, j 1, eq_ix2 j⟩
  rw [Cert.ReferenceIdeal.RefValue.out_apply, ← Cert.Spec.outSplit_eq_outWhole]
  exact scoreAt_eq_outSplit a2 a3 _ _ b c

end

end Cert.Proof.Bridge

end
-- ==== Proof.lean ====
/-
  A two-layer mean-aggregating graph network over 100000 nodes with 512 features, 64 hidden units, five sampled
  neighbours per node, 16384 query nodes and 16 classes: a kernel of two grid regions among host operations against a
  plain array program, equal as extended reals whenever the float inputs are finite.

  The kernel projects every feature row against the two halves of the layer-1 weight once (first region), THEN gathers
  and averages the neighbours' projected rows, adds the node's own projection and clamps at zero; the reference gathers
  and averages the neighbours' raw feature rows, concatenates them to the node's own row and contracts the result against
  the whole weight. The two agree because a contraction over a concatenated axis is the sum of the contractions over
  its two parts, and because averaging five real rows commutes with contracting them against a real column
  (distributivity: the one place the finiteness of the features and of the layer-1 weight is used). Neighbour and
  query indices are read the same way by both programs — a negative index wrapped by the row count, every start
  index then clamped into range by the gather — so no condition on the integer inputs is needed. Layer 2 and the
  classifier (second region) contract the query rows and the averaged neighbour rows against the two halves of the
  layer-2 weight and add, where the reference contracts the concatenated row against the whole weight: again the split
  of a finite sum, valid on all extended reals.

  The frames of the two kernel programs are the generated ones; the reference's frame is its generated run with the
  result dropped; the idealization rewrote no operation, so that conjunct is trivial.
-/
import proofs.«168417_j75204877353219_2_alg».proof.Defs
import proofs.«168417_j75204877353219_2_alg».proof.Proof.Gen.Kernel
import proofs.«168417_j75204877353219_2_alg».proof.Proof.Gen.Kernel.Skeleton
import proofs.«168417_j75204877353219_2_alg».proof.Proof.Gen.Kernel.Launch
import proofs.«168417_j75204877353219_2_alg».proof.Proof.Gen.Kernel.Points
import proofs.«168417_j75204877353219_2_alg».proof.Proof.Gen.Kernel.Frame
import proofs.«168417_j75204877353219_2_alg».proof.Proof.Gen.KernelIdeal
import proofs.«168417_j75204877353219_2_alg».proof.Proof.Gen.KernelIdeal.Skeleton
import proofs.«168417_j75204877353219_2_alg».proof.Proof.Gen.KernelIdeal.Launch
import proofs.«168417_j75204877353219_2_alg».proof.Proof.Gen.KernelIdeal.Points
import proofs.«168417_j75204877353219_2_alg».proof.Proof.Gen.KernelIdeal.Frame
import proofs.«168417_j75204877353219_2_alg».proof.Proof.Gen.ReferenceIdeal
import proofs.«168417_j75204877353219_2_alg».proof.Proof.Gen.Pre_finite_inputs
import proofs.«168417_j75204877353219_2_alg».proof.Proof.Gen.ReferenceIdeal.Run
import proofs.«168417_j75204877353219_2_alg».proof.Proof.Gen.ReferenceIdeal.Read
import proofs.«168417_j75204877353219_2_alg».proof.Proof.FiniteInputs
import proofs.«168417_j75204877353219_2_alg».proof.Proof.KernelValue
import proofs.«168417_j75204877353219_2_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_kernel : @Cert.frame_Kernel Cert.Kernel.Gen.facts Cert.Pre_finite_inputs.Gen.facts :=
  fun m ρ _ => Cert.Kernel.Gen.frame m ρ

/-- The idealized kernel runs and leaves its arguments unchanged. -/
theorem frame_kernelIdeal : @Cert.frame_KernelIdeal Cert.KernelIdeal.Gen.facts Cert.Pre_finite_inputs.Gen.facts :=
  fun m ρ _ => Cert.KernelIdeal.Gen.frame m ρ

/-- The idealized reference runs and leaves its arguments unchanged: its run, the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments, the features and the layer-1 weight finite, both programs end with
    the same scores: the kernel's function of the arguments is the reference's last stage. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Result.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  obtain ⟨hr0, hr1, -, -⟩ := Cert.Proof.Finite.reals_of_pre _ _ _ _ _ _ (hpre c)
  rw [Cert.ReferenceIdeal.Read.val_main_v43_eq, e0, e1, e2, e3, e4, e5]
  exact (Cert.Proof.Bridge.kernelOut_eq_ref _ _ _ _ _ _ hr0 hr1).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
